-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S1x32x3x1 : Shape := ⟨4, ![1, 32, 3, 1]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S1x32x3x1 : S_.BroadcastsInDim S1x32x3x1 (![] : Fin 0 → Fin S1x32x3x1.rank)
  reducesTo_S1x32x3x1_S_d0_1_2_3 : S1x32x3x1.ReducesTo [0, 1, 2, 3] S_

variable [Facts]

def fn {F : FTy → Type} [FloatOps F] (main_arg0 : FVec F S16x512 .f32) (main_arg1 : FVec F S1x32x3x1 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S1x32x3x1 .f32 := Host.absf main_arg1
  let main_cst_0 : FVec F S_ .f32 := constant S_ .f32 0x7F800000#32
  let main_v5 : FVec F S1x32x3x1 .f32 := broadcastInDim S1x32x3x1 ![] bcast_S_S1x32x3x1 main_cst_0
  let main_v6 : IVec S1x32x3x1 1 := cmpf .olt main_v4 main_v5
  let main_c_1 : IVec S_ 1 := constantI S_ 1 1#1
  let main_v7 : IVec S_ 1 := (fun x v => Host.reduce IntOp.andi x v reducesTo_S1x32x3x1_S_d0_1_2_3 h_S_) main_v6 main_c_1
  let main_v8 : IVec S_ 1 := andi main_v3 main_v7
  main_v8
-- ==== Kernel.lean ====
abbrev S16x512 : Shape := ⟨2, ![16, 512]⟩
abbrev S1x32x3x1 : Shape := ⟨4, ![1, 32, 3, 1]⟩
abbrev S1x32x1x1 : Shape := ⟨4, ![1, 32, 1, 1]⟩
abbrev S32 : Shape := ⟨1, ![32]⟩
abbrev S16x1x512 : Shape := ⟨3, ![16, 1, 512]⟩
abbrev S16x32x512x512 : Shape := ⟨4, ![16, 32, 512, 512]⟩
abbrev S1x1x256 : Shape := ⟨3, ![1, 1, 256]⟩
abbrev S1x1x512 : Shape := ⟨3, ![1, 1, 512]⟩
abbrev S1x32x256x512 : Shape := ⟨4, ![1, 32, 256, 512]⟩
abbrev S256 : Shape := ⟨1, ![256]⟩
abbrev S512 : Shape := ⟨1, ![512]⟩
abbrev S4 : Shape := ⟨1, ![4]⟩
abbrev S4x1 : Shape := ⟨2, ![4, 1]⟩
abbrev S1x256 : Shape := ⟨2, ![1, 256]⟩
abbrev S4x256 : Shape := ⟨2, ![4, 256]⟩
abbrev S1x512 : Shape := ⟨2, ![1, 512]⟩
abbrev S4x512 : Shape := ⟨2, ![4, 512]⟩
abbrev S4x256x1 : Shape := ⟨3, ![4, 256, 1]⟩
abbrev S4x1x512 : Shape := ⟨3, ![4, 1, 512]⟩
abbrev S4x256x512 : Shape := ⟨3, ![4, 256, 512]⟩
abbrev S1x4x256x512 : Shape := ⟨4, ![1, 4, 256, 512]⟩
abbrev S16x32x262144 : Shape := ⟨3, ![16, 32, 262144]⟩

abbrev nBuf : Space → Nat
  | .hbm => 11
  | .vmem => 9
  | .smem => 0
  | _ => 0

abbrev bufTy : (tb : Table) → Fin (tcTables nBuf tb) → BufTy
  | .hbm, ⟨0, _⟩ => ⟨S16x512, .f32⟩
  | .hbm, ⟨1, _⟩ => ⟨S1x32x3x1, .f32⟩
  | .hbm, ⟨2, _⟩ => ⟨S1x32x1x1, .f32⟩
  | .hbm, ⟨3, _⟩ => ⟨S32, .f32⟩
  | .hbm, ⟨4, _⟩ => ⟨S1x32x1x1, .f32⟩
  | .hbm, ⟨5, _⟩ => ⟨S32, .f32⟩
  | .hbm, ⟨6, _⟩ => ⟨S1x32x1x1, .f32⟩
  | .hbm, ⟨7, _⟩ => ⟨S32, .f32⟩
  | .hbm, ⟨8, _⟩ => ⟨S16x1x512, .f32⟩
  | .hbm, ⟨9, _⟩ => ⟨S16x32x512x512, .f32⟩
  | .hbm, ⟨10, _⟩ => ⟨S16x32x262144, .f32⟩
  | .local _ .vmem, ⟨0, _⟩ => ⟨S1x1x256, .f32⟩
  | .local _ .vmem, ⟨1, _⟩ => ⟨S1x1x256, .f32⟩
  | .local _ .vmem, ⟨2, _⟩ => ⟨S1x1x512, .f32⟩
  | .local _ .vmem, ⟨3, _⟩ => ⟨S1x1x512, .f32⟩
  | .local _ .vmem, ⟨4, _⟩ => ⟨S32, .f32⟩
  | .local _ .vmem, ⟨5, _⟩ => ⟨S32, .f32⟩
  | .local _ .vmem, ⟨6, _⟩ => ⟨S32, .f32⟩
  | .local _ .vmem, ⟨7, _⟩ => ⟨S1x32x256x512, .f32⟩
  | .local _ .vmem, ⟨8, _⟩ => ⟨S1x32x256x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x32x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  slices_S1x32x3x1_S1x32x1x1_0_0_0_0 : S1x32x3x1.Slices ![0, 0, 0, 0] S1x32x1x1
  shapeCasts_S1x32x1x1_S32 : S1x32x1x1.ShapeCasts S32
  slices_S1x32x3x1_S1x32x1x1_0_0_1_0 : S1x32x3x1.Slices ![0, 0, 1, 0] S1x32x1x1
  slices_S1x32x3x1_S1x32x1x1_0_0_2_0 : S1x32x3x1.Slices ![0, 0, 2, 0] S1x32x1x1
  shapeCasts_S16x512_S16x1x512 : S16x512.ShapeCasts S16x1x512
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S32_S32_0 : ∀ a, (![0] : Fin 1 → Nat) a + S32.size a ≤ S32.size a
  h_S32 : 0 < S32.numel
  shapeCasts_S32_S32 : S32.ShapeCasts S32
  slices_S32_o0_S4 : S32.Slices ![0] S4
  shapeCasts_S4_S4x1 : S4.ShapeCasts S4x1
  shapeCasts_S256_S1x256 : S256.ShapeCasts S1x256
  broadcasts_S4x1_S4x256 : S4x1.Broadcasts S4x256
  broadcasts_S1x256_S4x256 : S1x256.Broadcasts S4x256
  shapeCasts_S512_S1x512 : S512.ShapeCasts S1x512
  broadcasts_S4x1_S4x512 : S4x1.Broadcasts S4x512
  broadcasts_S1x512_S4x512 : S1x512.Broadcasts S4x512
  shapeCasts_S4x256_S4x256x1 : S4x256.ShapeCasts S4x256x1
  shapeCasts_S4x512_S4x1x512 : S4x512.ShapeCasts S4x1x512
  broadcasts_S4x256x1_S4x256x512 : S4x256x1.Broadcasts S4x256x512
  broadcasts_S4x1x512_S4x256x512 : S4x1x512.Broadcasts S4x256x512
  inb_S1x32x256x512_S1x4x256x512_0_0_0_0 : ∀ a, (![0, 0, 0, 0] : Fin 4 → Nat) a + S1x4x256x512.size a ≤ S1x32x256x512.size a
  h_S1x4x256x512 : 0 < S1x4x256x512.numel
  shapeCasts_S1x4x256x512_S4x256x512 : S1x4x256x512.ShapeCasts S4x256x512
  shapeCasts_S4x256x512_S1x4x256x512 : S4x256x512.ShapeCasts S1x4x256x512
  slices_S32_o4_S4 : S32.Slices ![4] S4
  inb_S1x32x256x512_S1x4x256x512_0_4_0_0 : ∀ a, (![0, 4, 0, 0] : Fin 4 → Nat) a + S1x4x256x512.size a ≤ S1x32x256x512.size a
  slices_S32_o8_S4 : S32.Slices ![8] S4
  inb_S1x32x256x512_S1x4x256x512_0_8_0_0 : ∀ a, (![0, 8, 0, 0] : Fin 4 → Nat) a + S1x4x256x512.size a ≤ S1x32x256x512.size a
  slices_S32_o12_S4 : S32.Slices ![12] S4
  inb_S1x32x256x512_S1x4x256x512_0_12_0_0 : ∀ a, (![0, 12, 0, 0] : Fin 4 → Nat) a + S1x4x256x512.size a ≤ S1x32x256x512.size a
  slices_S32_o16_S4 : S32.Slices ![16] S4
  inb_S1x32x256x512_S1x4x256x512_0_16_0_0 : ∀ a, (![0, 16, 0, 0] : Fin 4 → Nat) a + S1x4x256x512.size a ≤ S1x32x256x512.size a
  slices_S32_o20_S4 : S32.Slices ![20] S4
  inb_S1x32x256x512_S1x4x256x512_0_20_0_0 : ∀ a, (![0, 20, 0, 0] : Fin 4 → Nat) a + S1x4x256x512.size a ≤ S1x32x256x512.size a
  slices_S32_o24_S4 : S32.Slices ![24] S4
  inb_S1x32x256x512_S1x4x256x512_0_24_0_0 : ∀ a, (![0, 24, 0, 0] : Fin 4 → Nat) a + S1x4x256x512.size a ≤ S1x32x256x512.size a
  slices_S32_o28_S4 : S32.Slices ![28] S4
  inb_S1x32x256x512_S1x4x256x512_0_28_0_0 : ∀ a, (![0, 28, 0, 0] : Fin 4 → Nat) a + S1x4x256x512.size a ≤ S1x32x256x512.size a
  shapeCasts_S16x32x512x512_S16x32x262144 : S16x32x512x512.ShapeCasts S16x32x262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S16x1x512.size a
  hwx0_0 : ∀ i : grid0.Coords, EltTy.bits .f32 = 32 ∨ (Rect.block (s := S16x1x512) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x256x512.size a ≤ S16x32x512x512.size a
  hwx0_5 : ∀ i : grid0.Coords, EltTy.bits .f32 = 32 ∨ (Rect.block (s := S16x32x512x512) S1x32x256x512.size (cc0_transform_5 i) (hinb0_5 i)).WholeWords (EltTy.packing .f32)

variable [Facts₀]

abbrev win0_0 : Pipeline.Window sig grid0 :=
  Pipeline.Window.ofSpec (Memref.whole main_v6) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32x256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512 : Shape := ⟨2, ![16, 512]⟩
abbrev S1x32x3x1 : Shape := ⟨4, ![1, 32, 3, 1]⟩
abbrev S1x32x1x1 : Shape := ⟨4, ![1, 32, 1, 1]⟩
abbrev S32 : Shape := ⟨1, ![32]⟩
abbrev S16x1x512x1 : Shape := ⟨4, ![16, 1, 512, 1]⟩
abbrev S16x32x512x1 : Shape := ⟨4, ![16, 32, 512, 1]⟩
abbrev S16x1x1x512 : Shape := ⟨4, ![16, 1, 1, 512]⟩
abbrev S16x32x1x512 : Shape := ⟨4, ![16, 32, 1, 512]⟩
abbrev S16x32x512x512 : Shape := ⟨4, ![16, 32, 512, 512]⟩
abbrev S_ : Shape := ⟨0, ![]⟩
abbrev S16x32x262144 : Shape := ⟨3, ![16, 32, 262144]⟩

abbrev nBuf : Space → Nat
  | .hbm => 28
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S1x32x3x1, .f32⟩
  | .hbm, ⟨2, _⟩ => ⟨S1x32x1x1, .f32⟩
  | .hbm, ⟨3, _⟩ => ⟨S32, .f32⟩
  | .hbm, ⟨4, _⟩ => ⟨S1x32x1x1, .f32⟩
  | .hbm, ⟨5, _⟩ => ⟨S32, .f32⟩
  | .hbm, ⟨6, _⟩ => ⟨S1x32x1x1, .f32⟩
  | .hbm, ⟨7, _⟩ => ⟨S32, .f32⟩
  | .hbm, ⟨8, _⟩ => ⟨S1x32x1x1, .f32⟩
  | .hbm, ⟨9, _⟩ => ⟨S16x1x512x1, .f32⟩
  | .hbm, ⟨10, _⟩ => ⟨S16x32x512x1, .f32⟩
  | .hbm, ⟨11, _⟩ => ⟨S16x32x512x1, .f32⟩
  | .hbm, ⟨12, _⟩ => ⟨S16x32x512x1, .f32⟩
  | .hbm, ⟨13, _⟩ => ⟨S1x32x1x1, .f32⟩
  | .hbm, ⟨14, _⟩ => ⟨S16x1x1x512, .f32⟩
  | .hbm, ⟨15, _⟩ => ⟨S16x32x1x512, .f32⟩
  | .hbm, ⟨16, _⟩ => ⟨S16x32x1x512, .f32⟩
  | .hbm, ⟨17, _⟩ => ⟨S16x32x1x512, .f32⟩
  | .hbm, ⟨18, _⟩ => ⟨S16x32x512x512, .f32⟩
  | .hbm, ⟨19, _⟩ => ⟨S16x32x512x512, .f32⟩
  | .hbm, ⟨20, _⟩ => ⟨S16x32x512x512, .f32⟩
  | .hbm, ⟨21, _⟩ => ⟨S1x32x1x1, .f32⟩
  | .hbm, ⟨22, _⟩ => ⟨S16x32x512x512, .f32⟩
  | .hbm, ⟨23, _⟩ => ⟨S16x32x512x512, .f32⟩
  | .hbm, ⟨24, _⟩ => ⟨S_, .f32⟩
  | .hbm, ⟨25, _⟩ => ⟨S16x32x512x512, .f32⟩
  | .hbm, ⟨26, _⟩ => ⟨S16x32x512x512, .f32⟩
  | .hbm, ⟨27, _⟩ => ⟨S16x32x262144, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_cst : Ref sig .tc := ⟨.hbm, 24, rfl⟩
abbrev main_call0_v0 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]

class Facts₀ : Prop where
  slices_S1x32x3x1_S1x32x1x1_0_0_0_0 : S1x32x3x1.Slices ![0, 0, 0, 0] S1x32x1x1
  shapeCasts_S1x32x1x1_S32 : S1x32x1x1.ShapeCasts S32
  slices_S1x32x3x1_S1x32x1x1_0_0_1_0 : S1x32x3x1.Slices ![0, 0, 1, 0] S1x32x1x1
  slices_S1x32x3x1_S1x32x1x1_0_0_2_0 : S1x32x3x1.Slices ![0, 0, 2, 0] S1x32x1x1
  bcast_S32_S1x32x1x1_1 : S32.BroadcastsInDim S1x32x1x1 (![1] : Fin 1 → Fin S1x32x1x1.rank)
  bcast_S16x512_S16x1x512x1_0_2 : S16x512.BroadcastsInDim S16x1x512x1 (![0, 2] : Fin 2 → Fin S16x1x512x1.rank)
  bcast_S1x32x1x1_S16x32x512x1_0_1_2_3 : S1x32x1x1.BroadcastsInDim S16x32x512x1 (![0, 1, 2, 3] : Fin 4 → Fin S16x32x512x1.rank)
  bcast_S16x1x512x1_S16x32x512x1_0_1_2_3 : S16x1x512x1.BroadcastsInDim S16x32x512x1 (![0, 1, 2, 3] : Fin 4 → Fin S16x32x512x1.rank)
  bcast_S16x512_S16x1x1x512_0_3 : S16x512.BroadcastsInDim S16x1x1x512 (![0, 3] : Fin 2 → Fin S16x1x1x512.rank)
  bcast_S1x32x1x1_S16x32x1x512_0_1_2_3 : S1x32x1x1.BroadcastsInDim S16x32x1x512 (![0, 1, 2, 3] : Fin 4 → Fin S16x32x1x512.rank)
  bcast_S16x1x1x512_S16x32x1x512_0_1_2_3 : S16x1x1x512.BroadcastsInDim S16x32x1x512 (![0, 1, 2, 3] : Fin 4 → Fin S16x32x1x512.rank)
  bcast_S16x32x512x1_S16x32x512x512_0_1_2_3 : S16x32x512x1.BroadcastsInDim S16x32x512x512 (![0, 1, 2, 3] : Fin 4 → Fin S16x32x512x512.rank)
  bcast_S16x32x1x512_S16x32x512x512_0_1_2_3 : S16x32x1x512.BroadcastsInDim S16x32x512x512 (![0, 1, 2, 3] : Fin 4 → Fin S16x32x512x512.rank)
  bcast_S1x32x1x1_S16x32x512x512_0_1_2_3 : S1x32x1x1.BroadcastsInDim S16x32x512x512 (![0, 1, 2, 3] : Fin 4 → Fin S16x32x512x512.rank)
  bcast_S_S16x32x512x512 : S_.BroadcastsInDim S16x32x512x512 (![] : Fin 0 → Fin S16x32x512x512.rank)
  shapeCasts_S16x32x512x512_S16x32x262144 : S16x32x512x512.ShapeCasts S16x32x262144

variable [Facts₀]

class Facts : Prop extends Facts₀ where

variable [Facts]
-- ==== Proof.KernelBody.lean ====
/-
  The body of the pairwise kernel at one grid point, run on whole staging buffers.

  At a point the kernel reads a row block t_i (256 entries of row b of t), a row block t_j (all 512 entries
  of the same row) and the three weight columns w0, w1, w2 (32 entries each), and writes the block
  out[f, i, j] = max (w0 f * t_i i + (w1 f * t_j j + w2 f)) 0 of shape 1 x 32 x 256 x 512 in eight slabs of four
  feature rows each.  Each slab is one store through a literal rectangle; the eight rectangles tile the block,
  so after the body the output buffer is the canonical overlay of the eight stored slabs, whatever it held before.
  The loads of the output buffer the kernel makes before each store are never used.
-/
import proofs.«149641_j32358283608329_2_alg».proof.Proof.Gen.Kernel.Launch
import proofs.«149641_j32358283608329_2_alg».proof.Proof.Gen.Kernel.Skeleton
import proofs.«149641_j32358283608329_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The rectangles the body reads and writes -/

/-- The whole row block t_i. -/
abbrev rI : Rect S1x1x256 := Rect.unit (s := S1x1x256) ![0, 0, 0] S1x1x256.size inb_S1x1x256_S1x1x256_0_0_0
/-- The whole row block t_j. -/
abbrev rJ : Rect S1x1x512 := Rect.unit (s := S1x1x512) ![0, 0, 0] S1x1x512.size inb_S1x1x512_S1x1x512_0_0_0
/-- A whole weight column. -/
abbrev rW : Rect S32 := Rect.unit (s := S32) ![0] S32.size inb_S32_S32_0
/-- The eight slabs of four feature rows of the output block. -/
abbrev s0 : Rect S1x32x256x512 := Rect.unit (s := S1x32x256x512) ![0, 0, 0, 0] S1x4x256x512.size inb_S1x32x256x512_S1x4x256x512_0_0_0_0
abbrev s4 : Rect S1x32x256x512 := Rect.unit (s := S1x32x256x512) ![0, 4, 0, 0] S1x4x256x512.size inb_S1x32x256x512_S1x4x256x512_0_4_0_0
abbrev s8 : Rect S1x32x256x512 := Rect.unit (s := S1x32x256x512) ![0, 8, 0, 0] S1x4x256x512.size inb_S1x32x256x512_S1x4x256x512_0_8_0_0
abbrev s12 : Rect S1x32x256x512 := Rect.unit (s := S1x32x256x512) ![0, 12, 0, 0] S1x4x256x512.size inb_S1x32x256x512_S1x4x256x512_0_12_0_0
abbrev s16 : Rect S1x32x256x512 := Rect.unit (s := S1x32x256x512) ![0, 16, 0, 0] S1x4x256x512.size inb_S1x32x256x512_S1x4x256x512_0_16_0_0
abbrev s20 : Rect S1x32x256x512 := Rect.unit (s := S1x32x256x512) ![0, 20, 0, 0] S1x4x256x512.size inb_S1x32x256x512_S1x4x256x512_0_20_0_0
abbrev s24 : Rect S1x32x256x512 := Rect.unit (s := S1x32x256x512) ![0, 24, 0, 0] S1x4x256x512.size inb_S1x32x256x512_S1x4x256x512_0_24_0_0
abbrev s28 : Rect S1x32x256x512 := Rect.unit (s := S1x32x256x512) ![0, 28, 0, 0] S1x4x256x512.size inb_S1x32x256x512_S1x4x256x512_0_28_0_0

/-! ## The eight stored slabs as functions of the five input blocks -/

section Slabs
variable (x0 : Vec F S1x1x256 .f32) (x1 : Vec F S1x1x512 .f32) (x2 x3 x4 : Vec F S32 .f32)

/-- t_i, t_j and the weight columns as the body holds them after its loads. -/
def ti : FVec F S256 .f32 := k0_pay3 (View.ld x0 rI)
def tj : FVec F S512 .f32 := k0_pay4 (View.ld x1 rJ)
def c0 : FVec F S32 .f32 := k0_pay5 (View.ld x2 rW)
def c1 : FVec F S32 .f32 := k0_pay6 (View.ld x3 rW)
def c2 : FVec F S32 .f32 := k0_pay7 (View.ld x4 rW)

/-- Slab k holds feature rows 4k .. 4k+3. -/
def slab0 : FVec F S1x4x256x512 .f32 := k0_pay8 (View.ld x0 rI) (View.ld x1 rJ) (View.ld x2 rW) (View.ld x3 rW) (View.ld x4 rW)
def slab1 : FVec F S1x4x256x512 .f32 :=
  k0_pay13 (tj x1) (k0_pay9 (View.ld x3 rW)) (k0_pay10 (View.ld x4 rW)) (k0_pay11 (View.ld x0 rI)) (k0_pay12 (View.ld x2 rW))
def slab2 : FVec F S1x4x256x512 .f32 := k0_pay14 (ti x0) (tj x1) (c0 x2) (c1 x3) (c2 x4)
def slab3 : FVec F S1x4x256x512 .f32 := k0_pay17 (ti x0) (tj x1) (c2 x4) (k0_pay15 (c0 x2)) (k0_pay16 (c1 x3))
def slab4 : FVec F S1x4x256x512 .f32 := k0_pay19 (k0_pay18 (ti x0) (tj x1) (c0 x2) (c1 x3) (c2 x4))
def slab5 : FVec F S1x4x256x512 .f32 := k0_pay20 (ti x0) (tj x1) (c0 x2) (c1 x3) (c2 x4)
def slab6 : FVec F S1x4x256x512 .f32 := k0_pay1 (k0_pay21 (ti x0) (tj x1) (c0 x2) (c1 x3) (c2 x4))
def slab7 : FVec F S1x4x256x512 .f32 := k0_pay2 (ti x0) (tj x1) (c0 x2) (c1 x3) (c2 x4)

/-- The output block after the body: the eight slabs laid over one another, the last stored first. -/
def out5 : Vec F S1x32x256x512 .f32 :=
  View.canon [⟨s28, slab7 x0 x1 x2 x3 x4⟩, ⟨s24, slab6 x0 x1 x2 x3 x4⟩, ⟨s20, slab5 x0 x1 x2 x3 x4⟩, ⟨s16, slab4 x0 x1 x2 x3 x4⟩,
    ⟨s12, slab3 x0 x1 x2 x3 x4⟩, ⟨s8, slab2 x0 x1 x2 x3 x4⟩, ⟨s4, slab1 x0 x1 x2 x3 x4⟩, ⟨s0, slab0 x0 x1 x2 x3 x4⟩]

end Slabs

/-- The eight slabs tile the output block, so every index of the block lies in one of them. -/
theorem cover5 (p7 p6 p5 p4 p3 p2 p1 p0 : Vec F S1x4x256x512 .f32) (y : S1x32x256x512.Idx) :
    ∃ pc ∈ ([⟨s28, p7⟩, ⟨s24, p6⟩, ⟨s20, p5⟩, ⟨s16, p4⟩, ⟨s12, p3⟩, ⟨s8, p2⟩, ⟨s4, p1⟩, ⟨s0, p0⟩] : List (View.Piece (Elt F) S1x32x256x512 .f32)), y ∈ pc.1.set :=
  View.cover_of_tiled [⟨s28, p7⟩, ⟨s24, p6⟩, ⟨s20, p5⟩, ⟨s16, p4⟩, ⟨s12, p3⟩, ⟨s8, p2⟩, ⟨s4, p1⟩, ⟨s0, p0⟩] S1x4x256x512.size (by rfl) y

/-! ## The body's triple -/

set_option maxHeartbeats 4000000 in
/-- The body on whole staging buffers, the five inputs' at contents `x0 .. x4` and the output's at anything, runs to the
    continuation holding the inputs' as they were and the output's at `out5` of the inputs. -/
theorem sound_kernel (c : Dev nD) (E : Set ℕ) (i : grid0.Coords)
    (arg3 : Memref sig .tc .vmem S1x1x256 .f32) (harg3 : arg3.IsWhole) (arg4 : Memref sig .tc .vmem S1x1x512 .f32) (harg4 : arg4.IsWhole)
    (arg5 : Memref sig .tc .vmem S32 .f32) (harg5 : arg5.IsWhole) (arg6 : Memref sig .tc .vmem S32 .f32) (harg6 : arg6.IsWhole)
    (arg7 : Memref sig .tc .vmem S32 .f32) (harg7 : arg7.IsWhole) (arg8 : Memref sig .tc .vmem S1x32x256x512 .f32) (harg8 : arg8.IsWhole)
    (x0 : Vec F S1x1x256 .f32) (x1 : Vec F S1x1x512 .f32) (x2 x3 x4 : Vec F S32 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2 x3 x4)) -∗ K ⟨⟩))
      ⊢ wp frame (wpE (defs₀ (F := F)) Variants.none c none) E
          (cc0__pairwise_kernel i arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _ _ _ _)

end Cert.Kernel.Hand

end
-- ==== Proof.KernelData.lean ====
/-
  The proof data of the pairwise kernel's one pipeline, and its body obligation.

  The program reshapes t to [16, 1, 512] and hands that one array to the pipeline twice: window 0 reads the
  256-entry block (b, 0, i) of it and window 1 the 512-entry block (b, 0, j).  Both windows only read, so each is
  given one half of the array's ownership.  Windows 2, 3, 4 are the three weight columns, fetched once; window 5
  is the output, one 1 x 32 x 256 x 512 block per grid point, written back at every point.  After the body at a
  point every input buffer still holds its block and the output buffer holds the eight slabs computed from them.
-/
import proofs.«149641_j32358283608329_2_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the seven host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved and the body left the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input buffer at its block and the output buffer at the
    eight slabs of the input blocks; windows 0 and 1, which read one array, at one half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out5 (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of the pairwise kernel's program: the host operations, the one pipelined region, the final reshape.

  Windows 0 and 1 of the region read ONE array (t reshaped to [16, 1, 512]), so the array's ownership is split in
  halves between them at entry; the other four windows have arrays of their own.  After the region the output
  array holds what the library computes from the proof data (every block overwritten by what the body left at its
  point), the two halves of the shared array still hold its entry contents, and the one host operation left
  reshapes the output to [16, 32, 262144].  Nothing writes an argument.
-/
import proofs.«149641_j32358283608329_2_alg».proof.Proof.KernelData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array at entry -/

/-- The distinct buffers behind the six windows' arrays are five. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v1) ↦{fullShare} W main_v1)
          ∗ (((c : Thread nD τ).loc main_v3) ↦{fullShare} W main_v3) ∗ (((c : Thread nD τ).loc main_v5) ↦{fullShare} W main_v5)
          ∗ (((c : Thread nD τ).loc main_v7) ↦{fullShare} W main_v7)) := by
  unfold Pipeline.arrBufs
  exact BI.bigSep_eq_bigSepL_of_eq [main_v6, main_v1, main_v3, main_v5, main_v7] (by decide) (by decide) _

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- The pipeline's arrays at contents `G`, window by window: the shared array's two halves first. -/
theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v1) ↦{fullShare} G 2) ∗ (((c : Thread nD τ).loc main_v3) ↦{fullShare} G 3)
          ∗ (((c : Thread nD τ).loc main_v5) ↦{fullShare} G 4) ∗ (((c : Thread nD τ).loc main_v7) ↦{fullShare} G 5)) := by
  unfold Dat.arrays
  rw [bigSep_W0, share_0, share_1, share_2, share_3, share_4, share_5,
    (arr_whole0 0).set_eq_univ, (arr_whole0 2).set_eq_univ, (arr_whole0 3).set_eq_univ,
    (arr_whole0 4).set_eq_univ, (arr_whole0 5).set_eq_univ]

/-- At entry the shared array is split in halves between windows 0 and 1. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H6, H1, H3, H5, H7⟩
  ihave H6' := (pointsTo_share (PosShare.mem_left_op_right fullShare)).1 $$ H6
  icases H6' with ⟨H6a, H6b⟩
  isplitl [H6a]; · iexact H6a
  isplitl [H6b]; · iexact H6b
  isplitl [H1]; · iexact H1
  isplitl [H3]; · iexact H3
  isplitl [H5]; · iexact H5
  iexact H7

/-! ## The reshape after the region -/

/-- The buffers' contents when the region is left: the output array at what the region computed, every other buffer
    as the region found it. -/
def Wexit (c : Dev nD) : Valuation τ sig (Elt F) :=
  Function.update (V0 m c) (Proc.devRef .tc main_v7) ((dats m 0 c).arrAt 5 cfg0.N)

/-- The buffers' contents at the end of @main: after the one reshape that follows the region. -/
def Vend (c : Dev nD) (b : Ref sig .tc) : Buf (Elt F) ((c : Thread nD τ).loc b) :=
  StableHlo.after hostOps1 (Wexit m c) (Proc.devRef .tc b)

theorem Wexit_v7 (c : Dev nD) : Wexit m c (Proc.devRef .tc main_v7) = (dats m 0 c).arrAt 5 cfg0.N := by
  unfold Wexit; exact Function.update_self ..

theorem Wexit_of_ne (c : Dev nD) (b : Ref sig .tc) (h : b ≠ main_v7) : Wexit m c (Proc.devRef .tc b) = V m c b := by
  unfold Wexit; exact Function.update_of_ne (StableHlo.devRef_ne_of_ne h) ..

/-- The reshape writes only its result. -/
theorem Vend_of_ne (c : Dev nD) (b : Ref sig .tc) (h : b ≠ main_v8) : Vend m c b = Wexit m c (Proc.devRef .tc b) := by
  unfold Vend
  refine StableHlo.after_of_forall_not_mem (b := Proc.devRef .tc b) _ _ (List.forall_iff_forall_mem.mp ?_)
  simp only [hostOps1, List.Forall, StableHlo.reshape_writes, Finset.mem_singleton]
  exact StableHlo.devRef_ne_of_ne h

/-- Its result is the output array, reshaped. -/
theorem Vend_v8 (c : Dev nD) : Vend m c main_v8
    = shapeCast S16x32x262144 ((dats m 0 c).arrAt 5 cfg0.N : Vec F S16x32x512x512 .f32) shapeCasts_S16x32x512x512_S16x32x262144 := by
  unfold Vend
  simp only [hostOps1, StableHlo.after_cons, StableHlo.after_nil]
  rw [StableHlo.reshape_result', Wexit_v7]
  rfl

/-- The pipeline's arrays, window by window. -/
abbrev arrChain (c : Dev nD) (G : (w : Fin cfg0.W) → Buf (Elt F) ((cfg0.win w).arr.view.loc (c.tc : Thread nD τ))) : sProp 𝕄 :=
  iprop((((c : Thread nD τ).loc main_v6) ↦{fullShare.left} G 0) ∗ (((c : Thread nD τ).loc main_v6) ↦{fullShare.right} G 1)
    ∗ (((c : Thread nD τ).loc main_v1) ↦{fullShare} G 2) ∗ (((c : Thread nD τ).loc main_v3) ↦{fullShare} G 3)
    ∗ (((c : Thread nD τ).loc main_v5) ↦{fullShare} G 4) ∗ (((c : Thread nD τ).loc main_v7) ↦{fullShare} G 5))

/-- The unscoped buffers that are no window's array, one by one. -/
abbrev restChain (c : Dev nD) (W : (b : Ref sig .tc) → Buf (Elt F) ((c : Thread nD τ).loc b)) : sProp 𝕄 :=
  iprop((((c : Thread nD τ).loc main_arg0) ↦{fullShare} W main_arg0) ∗ (((c : Thread nD τ).loc main_arg1) ↦{fullShare} W main_arg1)
    ∗ (((c : Thread nD τ).loc main_v0) ↦{fullShare} W main_v0) ∗ (((c : Thread nD τ).loc main_v2) ↦{fullShare} W main_v2)
    ∗ (((c : Thread nD τ).loc main_v4) ↦{fullShare} W main_v4) ∗ (((c : Thread nD τ).loc main_v8) ↦{fullShare} W main_v8))

theorem rest_eq (c : Dev nD) (W : (b : Ref sig .tc) → Buf (Elt F) ((c : Thread nD τ).loc b)) :
    (Pipeline.unscopedRestP (Ix := Unit) (Name := ℕ) (U := UR sig nD τ) (Lvl := ℕ) Pipeline.Prefetch.none spec0 c W : sProp 𝕄) = restChain c W := by
  rw [Pipeline.unscopedRestP_none, unscopedRest0_eq]

/-- The reshape's two buffers held together. -/
theorem held_pair (c : Dev nD) (W : Valuation τ sig (Elt F)) :
    (StableHlo.held (Ix := Unit) (Name := ℕ) (U := UR sig nD τ) (Lvl := ℕ) (c.tc : Thread nD τ) {Proc.devRef .tc main_v7, Proc.devRef .tc main_v8} W : sProp 𝕄)
      = iprop((((c : Thread nD τ).loc main_v7) ↦{fullShare} W (Proc.devRef .tc main_v7)) ∗ (((c : Thread nD τ).loc main_v8) ↦{fullShare} W (Proc.devRef .tc main_v8))) := by
  unfold StableHlo.held
  rw [bigSep_insert (by rw [Finset.mem_singleton]; exact StableHlo.devRef_ne_of_ne (by decide)), bigSep_singleton]
  rfl

theorem tail_sub : ∀ op ∈ (hostOps1 : List (HloOp τ sig (Elt F))), op.bufs ⊆ ({Proc.devRef .tc main_v7, Proc.devRef .tc main_v8} : Finset (DevRef τ sig)) := by
  intro op hop
  simp only [hostOps1, List.mem_cons, List.mem_nil_iff, or_false] at hop
  subst hop
  rw [StableHlo.reshape_bufs]

set_option backward.isDefEq.respectTransparency.types false in
/-- After the region the one reshape runs on the output array and its own result, and hands back the arrays as the region
    left them and every other buffer at the final contents. -/
theorem tail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  have hpre : iprop((((c : Thread nD τ).loc main_v7) ↦{fullShare} (dats m 0 c).arrAt 5 cfg0.N) ∗ (((c : Thread nD τ).loc main_v8) ↦{fullShare} V m c main_v8))
      ⊢ (StableHlo.held (Ix := Unit) (Name := ℕ) (U := UR sig nD τ) (Lvl := ℕ) (c.tc : Thread nD τ) {Proc.devRef .tc main_v7, Proc.devRef .tc main_v8} (Wexit m c) : sProp 𝕄) := by
    rw [held_pair, Wexit_v7, Wexit_of_ne m c main_v8 (by decide)]
  have hpost : (StableHlo.held (Ix := Unit) (Name := ℕ) (U := UR sig nD τ) (Lvl := ℕ) (c.tc : Thread nD τ) {Proc.devRef .tc main_v7, Proc.devRef .tc main_v8}
        (StableHlo.after hostOps1 (Wexit m c)) : sProp 𝕄)
      ⊢ iprop((((c : Thread nD τ).loc main_v7) ↦{fullShare} (dats m 0 c).arrAt 5 cfg0.N) ∗ (((c : Thread nD τ).loc main_v8) ↦{fullShare} Vend m c main_v8)) := by
    rw [held_pair]
    show iprop((((c : Thread nD τ).loc main_v7) ↦{fullShare} Vend m c main_v7) ∗ (((c : Thread nD τ).loc main_v8) ↦{fullShare} Vend m c main_v8)) ⊢ _
    rw [Vend_of_ne m c main_v7 (by decide), Wexit_v7]
  rw [rest_eq, rest_eq, arrays_eq]
  unfold restChain
  rw [Vend_of_ne m c main_arg0 (by decide), Vend_of_ne m c main_arg1 (by decide), Vend_of_ne m c main_v0 (by decide),
    Vend_of_ne m c main_v2 (by decide), Vend_of_ne m c main_v4 (by decide),
    Wexit_of_ne m c main_arg0 (by decide), Wexit_of_ne m c main_arg1 (by decide), Wexit_of_ne m c main_v0 (by decide),
    Wexit_of_ne m c main_v2 (by decide), Wexit_of_ne m c main_v4 (by decide)]
  rw [Pipeline.chain_cons, Pipeline.chain_nil]
  iintro ⟨HQ, Hb, ⟨A0, A1, A2, A3, A4, A5⟩, ⟨R0, R1, R2, R3, R4, R8⟩⟩
  ihave Hheld := hpre $$ [A5 R8]
  · isplitl [A5]; · iexact A5
    iexact R8
  iapply (StableHlo.wp_seq (Variants.lift Variants.none) none Set.univ c {Proc.devRef .tc main_v7, Proc.devRef .tc main_v8} (fun _ => pure ⟨⟩)
    hostOps1 tail_sub (List.forall_iff_forall_mem.mp hostOps1_fresh) (Wexit m c)) $$ [Hb Hheld]
  · isplitl [Hb]; · iexact Hb
    iexact Hheld
  iintro ⟨Hb, Hheld⟩
  ihave Hp := hpost $$ Hheld
  icases Hp with ⟨A5, R8⟩
  rw [show (pure PUnit.unit : Prog (TpuEff nD τ sig (Elt F) (Pipeline.Sig Λ₀ (Fin 1) fun p => (pcfgs (F := F) p).Adm) .tc) PUnit) = .ret ⟨⟩ from rfl, wp_ret]
  imodintro
  iapply HQ
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0]; · iexact R0
  isplitl [R1]; · iexact R1
  isplitl [R2]; · iexact R2
  isplitl [R3]; · iexact R3
  isplitl [R4]; · iexact R4
  iexact R8

/-! ## The run -/

set_option backward.isDefEq.respectTransparency.types false in
/-- Every weakly fair execution of @main terminates, and at the end every array of the pipeline holds what the library
    computes from the proof data and every other unscoped buffer what the final reshape leaves. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail m)
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, Pipeline.rest_of_restP Pipeline.Prefetch.none spec0 _ c (Vend m c) s (fun k => k.elim0) (h c).2.1 (h c).2.2⟩)

/-- info: 'Cert.Kernel.Hand.run_main' depends on axioms: [propext, Classical.choice, Quot.sound] -/
#guard_msgs in #print axioms run_main

/-! ## What the run says of the arguments and of the result -/

/-- The arguments end as launched, and the result is the output array reshaped. -/
theorem run : θ_run defs (onTc (τ := τ) (main (F := F))) ⟨m, fun _ => 0, ρ⟩ (fun r => ∀ c : Dev nD,
      r.2.mem ((c.tc : Thread nD τ).loc main_v8)
          = shapeCast S16x32x262144 ((dats m 0 c).arrAt 5 cfg0.N : Vec F S16x32x512x512 .f32) shapeCasts_S16x32x512x512_S16x32x262144
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
    ((h c).2 main_v8 (Pipeline.mem_restRefs_of main_v8 (by decide) (by decide))).trans (Vend_v8 m c),
    ((h c).2 main_arg0 (Pipeline.mem_restRefs_of main_arg0 (by decide) (by decide))).trans
      (((Vend_of_ne m c main_arg0 (by decide)).trans (Wexit_of_ne m c main_arg0 (by decide))).trans (V_main_arg0 m c)),
    ((h c).2 main_arg1 (Pipeline.mem_restRefs_of main_arg1 (by decide) (by decide))).trans
      (((Vend_of_ne m c main_arg1 (by decide)).trans (Wexit_of_ne m c main_arg1 (by decide))).trans (V_main_arg1 m c))⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.KernelIdealBody.lean ====
/-
  The body of the pairwise kernel at one grid point, run on whole staging buffers.

  At a point the kernel reads a row block t_i (256 entries of row b of t), a row block t_j (all 512 entries
  of the same row) and the three weight columns w0, w1, w2 (32 entries each), and writes the block
  out[f, i, j] = max (w0 f * t_i i + (w1 f * t_j j + w2 f)) 0 of shape 1 x 32 x 256 x 512 in eight slabs of four
  feature rows each.  Each slab is one store through a literal rectangle; the eight rectangles tile the block,
  so after the body the output buffer is the canonical overlay of the eight stored slabs, whatever it held before.
  The loads of the output buffer the kernel makes before each store are never used.
-/
import proofs.«149641_j32358283608329_2_alg».proof.Proof.Gen.KernelIdeal.Launch
import proofs.«149641_j32358283608329_2_alg».proof.Proof.Gen.KernelIdeal.Skeleton
import proofs.«149641_j32358283608329_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The rectangles the body reads and writes -/

/-- The whole row block t_i. -/
abbrev rI : Rect S1x1x256 := Rect.unit (s := S1x1x256) ![0, 0, 0] S1x1x256.size inb_S1x1x256_S1x1x256_0_0_0
/-- The whole row block t_j. -/
abbrev rJ : Rect S1x1x512 := Rect.unit (s := S1x1x512) ![0, 0, 0] S1x1x512.size inb_S1x1x512_S1x1x512_0_0_0
/-- A whole weight column. -/
abbrev rW : Rect S32 := Rect.unit (s := S32) ![0] S32.size inb_S32_S32_0
/-- The eight slabs of four feature rows of the output block. -/
abbrev s0 : Rect S1x32x256x512 := Rect.unit (s := S1x32x256x512) ![0, 0, 0, 0] S1x4x256x512.size inb_S1x32x256x512_S1x4x256x512_0_0_0_0
abbrev s4 : Rect S1x32x256x512 := Rect.unit (s := S1x32x256x512) ![0, 4, 0, 0] S1x4x256x512.size inb_S1x32x256x512_S1x4x256x512_0_4_0_0
abbrev s8 : Rect S1x32x256x512 := Rect.unit (s := S1x32x256x512) ![0, 8, 0, 0] S1x4x256x512.size inb_S1x32x256x512_S1x4x256x512_0_8_0_0
abbrev s12 : Rect S1x32x256x512 := Rect.unit (s := S1x32x256x512) ![0, 12, 0, 0] S1x4x256x512.size inb_S1x32x256x512_S1x4x256x512_0_12_0_0
abbrev s16 : Rect S1x32x256x512 := Rect.unit (s := S1x32x256x512) ![0, 16, 0, 0] S1x4x256x512.size inb_S1x32x256x512_S1x4x256x512_0_16_0_0
abbrev s20 : Rect S1x32x256x512 := Rect.unit (s := S1x32x256x512) ![0, 20, 0, 0] S1x4x256x512.size inb_S1x32x256x512_S1x4x256x512_0_20_0_0
abbrev s24 : Rect S1x32x256x512 := Rect.unit (s := S1x32x256x512) ![0, 24, 0, 0] S1x4x256x512.size inb_S1x32x256x512_S1x4x256x512_0_24_0_0
abbrev s28 : Rect S1x32x256x512 := Rect.unit (s := S1x32x256x512) ![0, 28, 0, 0] S1x4x256x512.size inb_S1x32x256x512_S1x4x256x512_0_28_0_0

/-! ## The eight stored slabs as functions of the five input blocks -/

section Slabs
variable (x0 : Vec F S1x1x256 .f32) (x1 : Vec F S1x1x512 .f32) (x2 x3 x4 : Vec F S32 .f32)

/-- t_i, t_j and the weight columns as the body holds them after its loads. -/
def ti : FVec F S256 .f32 := k0_pay3 (View.ld x0 rI)
def tj : FVec F S512 .f32 := k0_pay4 (View.ld x1 rJ)
def c0 : FVec F S32 .f32 := k0_pay5 (View.ld x2 rW)
def c1 : FVec F S32 .f32 := k0_pay6 (View.ld x3 rW)
def c2 : FVec F S32 .f32 := k0_pay7 (View.ld x4 rW)

/-- Slab k holds feature rows 4k .. 4k+3. -/
def slab0 : FVec F S1x4x256x512 .f32 := k0_pay8 (View.ld x0 rI) (View.ld x1 rJ) (View.ld x2 rW) (View.ld x3 rW) (View.ld x4 rW)
def slab1 : FVec F S1x4x256x512 .f32 :=
  k0_pay13 (tj x1) (k0_pay9 (View.ld x3 rW)) (k0_pay10 (View.ld x4 rW)) (k0_pay11 (View.ld x0 rI)) (k0_pay12 (View.ld x2 rW))
def slab2 : FVec F S1x4x256x512 .f32 := k0_pay14 (ti x0) (tj x1) (c0 x2) (c1 x3) (c2 x4)
def slab3 : FVec F S1x4x256x512 .f32 := k0_pay17 (ti x0) (tj x1) (c2 x4) (k0_pay15 (c0 x2)) (k0_pay16 (c1 x3))
def slab4 : FVec F S1x4x256x512 .f32 := k0_pay19 (k0_pay18 (ti x0) (tj x1) (c0 x2) (c1 x3) (c2 x4))
def slab5 : FVec F S1x4x256x512 .f32 := k0_pay20 (ti x0) (tj x1) (c0 x2) (c1 x3) (c2 x4)
def slab6 : FVec F S1x4x256x512 .f32 := k0_pay1 (k0_pay21 (ti x0) (tj x1) (c0 x2) (c1 x3) (c2 x4))
def slab7 : FVec F S1x4x256x512 .f32 := k0_pay2 (ti x0) (tj x1) (c0 x2) (c1 x3) (c2 x4)

/-- The output block after the body: the eight slabs laid over one another, the last stored first. -/
def out5 : Vec F S1x32x256x512 .f32 :=
  View.canon [⟨s28, slab7 x0 x1 x2 x3 x4⟩, ⟨s24, slab6 x0 x1 x2 x3 x4⟩, ⟨s20, slab5 x0 x1 x2 x3 x4⟩, ⟨s16, slab4 x0 x1 x2 x3 x4⟩,
    ⟨s12, slab3 x0 x1 x2 x3 x4⟩, ⟨s8, slab2 x0 x1 x2 x3 x4⟩, ⟨s4, slab1 x0 x1 x2 x3 x4⟩, ⟨s0, slab0 x0 x1 x2 x3 x4⟩]

end Slabs

/-- The eight slabs tile the output block, so every index of the block lies in one of them. -/
theorem cover5 (p7 p6 p5 p4 p3 p2 p1 p0 : Vec F S1x4x256x512 .f32) (y : S1x32x256x512.Idx) :
    ∃ pc ∈ ([⟨s28, p7⟩, ⟨s24, p6⟩, ⟨s20, p5⟩, ⟨s16, p4⟩, ⟨s12, p3⟩, ⟨s8, p2⟩, ⟨s4, p1⟩, ⟨s0, p0⟩] : List (View.Piece (Elt F) S1x32x256x512 .f32)), y ∈ pc.1.set :=
  View.cover_of_tiled [⟨s28, p7⟩, ⟨s24, p6⟩, ⟨s20, p5⟩, ⟨s16, p4⟩, ⟨s12, p3⟩, ⟨s8, p2⟩, ⟨s4, p1⟩, ⟨s0, p0⟩] S1x4x256x512.size (by rfl) y

/-! ## The body's triple -/

set_option maxHeartbeats 4000000 in
/-- The body on whole staging buffers, the five inputs' at contents `x0 .. x4` and the output's at anything, runs to the
    continuation holding the inputs' as they were and the output's at `out5` of the inputs. -/
theorem sound_kernel (c : Dev nD) (E : Set ℕ) (i : grid0.Coords)
    (arg3 : Memref sig .tc .vmem S1x1x256 .f32) (harg3 : arg3.IsWhole) (arg4 : Memref sig .tc .vmem S1x1x512 .f32) (harg4 : arg4.IsWhole)
    (arg5 : Memref sig .tc .vmem S32 .f32) (harg5 : arg5.IsWhole) (arg6 : Memref sig .tc .vmem S32 .f32) (harg6 : arg6.IsWhole)
    (arg7 : Memref sig .tc .vmem S32 .f32) (harg7 : arg7.IsWhole) (arg8 : Memref sig .tc .vmem S1x32x256x512 .f32) (harg8 : arg8.IsWhole)
    (x0 : Vec F S1x1x256 .f32) (x1 : Vec F S1x1x512 .f32) (x2 x3 x4 : Vec F S32 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2 x3 x4)) -∗ K ⟨⟩))
      ⊢ wp frame (wpE (defs₀ (F := F)) Variants.none c none) E
          (cc0__pairwise_kernel i arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _ _ _ _)

end Cert.KernelIdeal.Hand

end
-- ==== Proof.KernelIdealData.lean ====
/-
  The proof data of the pairwise kernel's one pipeline, and its body obligation.

  The program reshapes t to [16, 1, 512] and hands that one array to the pipeline twice: window 0 reads the
  256-entry block (b, 0, i) of it and window 1 the 512-entry block (b, 0, j).  Both windows only read, so each is
  given one half of the array's ownership.  Windows 2, 3, 4 are the three weight columns, fetched once; window 5
  is the output, one 1 x 32 x 256 x 512 block per grid point, written back at every point.  After the body at a
  point every input buffer still holds its block and the output buffer holds the eight slabs computed from them.
-/
import proofs.«149641_j32358283608329_2_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the seven host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved and the body left the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input buffer at its block and the output buffer at the
    eight slabs of the input blocks; windows 0 and 1, which read one array, at one half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out5 (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the pairwise kernel's program: the host operations, the one pipelined region, the final reshape.

  Windows 0 and 1 of the region read ONE array (t reshaped to [16, 1, 512]), so the array's ownership is split in
  halves between them at entry; the other four windows have arrays of their own.  After the region the output
  array holds what the library computes from the proof data (every block overwritten by what the body left at its
  point), the two halves of the shared array still hold its entry contents, and the one host operation left
  reshapes the output to [16, 32, 262144].  Nothing writes an argument.
-/
import proofs.«149641_j32358283608329_2_alg».proof.Proof.KernelIdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array at entry -/

/-- The distinct buffers behind the six windows' arrays are five. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v1) ↦{fullShare} W main_v1)
          ∗ (((c : Thread nD τ).loc main_v3) ↦{fullShare} W main_v3) ∗ (((c : Thread nD τ).loc main_v5) ↦{fullShare} W main_v5)
          ∗ (((c : Thread nD τ).loc main_v7) ↦{fullShare} W main_v7)) := by
  unfold Pipeline.arrBufs
  exact BI.bigSep_eq_bigSepL_of_eq [main_v6, main_v1, main_v3, main_v5, main_v7] (by decide) (by decide) _

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- The pipeline's arrays at contents `G`, window by window: the shared array's two halves first. -/
theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v1) ↦{fullShare} G 2) ∗ (((c : Thread nD τ).loc main_v3) ↦{fullShare} G 3)
          ∗ (((c : Thread nD τ).loc main_v5) ↦{fullShare} G 4) ∗ (((c : Thread nD τ).loc main_v7) ↦{fullShare} G 5)) := by
  unfold Dat.arrays
  rw [bigSep_W0, share_0, share_1, share_2, share_3, share_4, share_5,
    (arr_whole0 0).set_eq_univ, (arr_whole0 2).set_eq_univ, (arr_whole0 3).set_eq_univ,
    (arr_whole0 4).set_eq_univ, (arr_whole0 5).set_eq_univ]

/-- At entry the shared array is split in halves between windows 0 and 1. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H6, H1, H3, H5, H7⟩
  ihave H6' := (pointsTo_share (PosShare.mem_left_op_right fullShare)).1 $$ H6
  icases H6' with ⟨H6a, H6b⟩
  isplitl [H6a]; · iexact H6a
  isplitl [H6b]; · iexact H6b
  isplitl [H1]; · iexact H1
  isplitl [H3]; · iexact H3
  isplitl [H5]; · iexact H5
  iexact H7

/-! ## The reshape after the region -/

/-- The buffers' contents when the region is left: the output array at what the region computed, every other buffer
    as the region found it. -/
def Wexit (c : Dev nD) : Valuation τ sig (Elt F) :=
  Function.update (V0 m c) (Proc.devRef .tc main_v7) ((dats m 0 c).arrAt 5 cfg0.N)

/-- The buffers' contents at the end of @main: after the one reshape that follows the region. -/
def Vend (c : Dev nD) (b : Ref sig .tc) : Buf (Elt F) ((c : Thread nD τ).loc b) :=
  StableHlo.after hostOps1 (Wexit m c) (Proc.devRef .tc b)

theorem Wexit_v7 (c : Dev nD) : Wexit m c (Proc.devRef .tc main_v7) = (dats m 0 c).arrAt 5 cfg0.N := by
  unfold Wexit; exact Function.update_self ..

theorem Wexit_of_ne (c : Dev nD) (b : Ref sig .tc) (h : b ≠ main_v7) : Wexit m c (Proc.devRef .tc b) = V m c b := by
  unfold Wexit; exact Function.update_of_ne (StableHlo.devRef_ne_of_ne h) ..

/-- The reshape writes only its result. -/
theorem Vend_of_ne (c : Dev nD) (b : Ref sig .tc) (h : b ≠ main_v8) : Vend m c b = Wexit m c (Proc.devRef .tc b) := by
  unfold Vend
  refine StableHlo.after_of_forall_not_mem (b := Proc.devRef .tc b) _ _ (List.forall_iff_forall_mem.mp ?_)
  simp only [hostOps1, List.Forall, StableHlo.reshape_writes, Finset.mem_singleton]
  exact StableHlo.devRef_ne_of_ne h

/-- Its result is the output array, reshaped. -/
theorem Vend_v8 (c : Dev nD) : Vend m c main_v8
    = shapeCast S16x32x262144 ((dats m 0 c).arrAt 5 cfg0.N : Vec F S16x32x512x512 .f32) shapeCasts_S16x32x512x512_S16x32x262144 := by
  unfold Vend
  simp only [hostOps1, StableHlo.after_cons, StableHlo.after_nil]
  rw [StableHlo.reshape_result', Wexit_v7]
  rfl

/-- The pipeline's arrays, window by window. -/
abbrev arrChain (c : Dev nD) (G : (w : Fin cfg0.W) → Buf (Elt F) ((cfg0.win w).arr.view.loc (c.tc : Thread nD τ))) : sProp 𝕄 :=
  iprop((((c : Thread nD τ).loc main_v6) ↦{fullShare.left} G 0) ∗ (((c : Thread nD τ).loc main_v6) ↦{fullShare.right} G 1)
    ∗ (((c : Thread nD τ).loc main_v1) ↦{fullShare} G 2) ∗ (((c : Thread nD τ).loc main_v3) ↦{fullShare} G 3)
    ∗ (((c : Thread nD τ).loc main_v5) ↦{fullShare} G 4) ∗ (((c : Thread nD τ).loc main_v7) ↦{fullShare} G 5))

/-- The unscoped buffers that are no window's array, one by one. -/
abbrev restChain (c : Dev nD) (W : (b : Ref sig .tc) → Buf (Elt F) ((c : Thread nD τ).loc b)) : sProp 𝕄 :=
  iprop((((c : Thread nD τ).loc main_arg0) ↦{fullShare} W main_arg0) ∗ (((c : Thread nD τ).loc main_arg1) ↦{fullShare} W main_arg1)
    ∗ (((c : Thread nD τ).loc main_v0) ↦{fullShare} W main_v0) ∗ (((c : Thread nD τ).loc main_v2) ↦{fullShare} W main_v2)
    ∗ (((c : Thread nD τ).loc main_v4) ↦{fullShare} W main_v4) ∗ (((c : Thread nD τ).loc main_v8) ↦{fullShare} W main_v8))

theorem rest_eq (c : Dev nD) (W : (b : Ref sig .tc) → Buf (Elt F) ((c : Thread nD τ).loc b)) :
    (Pipeline.unscopedRestP (Ix := Unit) (Name := ℕ) (U := UR sig nD τ) (Lvl := ℕ) Pipeline.Prefetch.none spec0 c W : sProp 𝕄) = restChain c W := by
  rw [Pipeline.unscopedRestP_none, unscopedRest0_eq]

/-- The reshape's two buffers held together. -/
theorem held_pair (c : Dev nD) (W : Valuation τ sig (Elt F)) :
    (StableHlo.held (Ix := Unit) (Name := ℕ) (U := UR sig nD τ) (Lvl := ℕ) (c.tc : Thread nD τ) {Proc.devRef .tc main_v7, Proc.devRef .tc main_v8} W : sProp 𝕄)
      = iprop((((c : Thread nD τ).loc main_v7) ↦{fullShare} W (Proc.devRef .tc main_v7)) ∗ (((c : Thread nD τ).loc main_v8) ↦{fullShare} W (Proc.devRef .tc main_v8))) := by
  unfold StableHlo.held
  rw [bigSep_insert (by rw [Finset.mem_singleton]; exact StableHlo.devRef_ne_of_ne (by decide)), bigSep_singleton]
  rfl

theorem tail_sub : ∀ op ∈ (hostOps1 : List (HloOp τ sig (Elt F))), op.bufs ⊆ ({Proc.devRef .tc main_v7, Proc.devRef .tc main_v8} : Finset (DevRef τ sig)) := by
  intro op hop
  simp only [hostOps1, List.mem_cons, List.mem_nil_iff, or_false] at hop
  subst hop
  rw [StableHlo.reshape_bufs]

set_option backward.isDefEq.respectTransparency.types false in
/-- After the region the one reshape runs on the output array and its own result, and hands back the arrays as the region
    left them and every other buffer at the final contents. -/
theorem tail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  have hpre : iprop((((c : Thread nD τ).loc main_v7) ↦{fullShare} (dats m 0 c).arrAt 5 cfg0.N) ∗ (((c : Thread nD τ).loc main_v8) ↦{fullShare} V m c main_v8))
      ⊢ (StableHlo.held (Ix := Unit) (Name := ℕ) (U := UR sig nD τ) (Lvl := ℕ) (c.tc : Thread nD τ) {Proc.devRef .tc main_v7, Proc.devRef .tc main_v8} (Wexit m c) : sProp 𝕄) := by
    rw [held_pair, Wexit_v7, Wexit_of_ne m c main_v8 (by decide)]
  have hpost : (StableHlo.held (Ix := Unit) (Name := ℕ) (U := UR sig nD τ) (Lvl := ℕ) (c.tc : Thread nD τ) {Proc.devRef .tc main_v7, Proc.devRef .tc main_v8}
        (StableHlo.after hostOps1 (Wexit m c)) : sProp 𝕄)
      ⊢ iprop((((c : Thread nD τ).loc main_v7) ↦{fullShare} (dats m 0 c).arrAt 5 cfg0.N) ∗ (((c : Thread nD τ).loc main_v8) ↦{fullShare} Vend m c main_v8)) := by
    rw [held_pair]
    show iprop((((c : Thread nD τ).loc main_v7) ↦{fullShare} Vend m c main_v7) ∗ (((c : Thread nD τ).loc main_v8) ↦{fullShare} Vend m c main_v8)) ⊢ _
    rw [Vend_of_ne m c main_v7 (by decide), Wexit_v7]
  rw [rest_eq, rest_eq, arrays_eq]
  unfold restChain
  rw [Vend_of_ne m c main_arg0 (by decide), Vend_of_ne m c main_arg1 (by decide), Vend_of_ne m c main_v0 (by decide),
    Vend_of_ne m c main_v2 (by decide), Vend_of_ne m c main_v4 (by decide),
    Wexit_of_ne m c main_arg0 (by decide), Wexit_of_ne m c main_arg1 (by decide), Wexit_of_ne m c main_v0 (by decide),
    Wexit_of_ne m c main_v2 (by decide), Wexit_of_ne m c main_v4 (by decide)]
  rw [Pipeline.chain_cons, Pipeline.chain_nil]
  iintro ⟨HQ, Hb, ⟨A0, A1, A2, A3, A4, A5⟩, ⟨R0, R1, R2, R3, R4, R8⟩⟩
  ihave Hheld := hpre $$ [A5 R8]
  · isplitl [A5]; · iexact A5
    iexact R8
  iapply (StableHlo.wp_seq (Variants.lift Variants.none) none Set.univ c {Proc.devRef .tc main_v7, Proc.devRef .tc main_v8} (fun _ => pure ⟨⟩)
    hostOps1 tail_sub (List.forall_iff_forall_mem.mp hostOps1_fresh) (Wexit m c)) $$ [Hb Hheld]
  · isplitl [Hb]; · iexact Hb
    iexact Hheld
  iintro ⟨Hb, Hheld⟩
  ihave Hp := hpost $$ Hheld
  icases Hp with ⟨A5, R8⟩
  rw [show (pure PUnit.unit : Prog (TpuEff nD τ sig (Elt F) (Pipeline.Sig Λ₀ (Fin 1) fun p => (pcfgs (F := F) p).Adm) .tc) PUnit) = .ret ⟨⟩ from rfl, wp_ret]
  imodintro
  iapply HQ
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0]; · iexact R0
  isplitl [R1]; · iexact R1
  isplitl [R2]; · iexact R2
  isplitl [R3]; · iexact R3
  isplitl [R4]; · iexact R4
  iexact R8

/-! ## The run -/

set_option backward.isDefEq.respectTransparency.types false in
/-- Every weakly fair execution of @main terminates, and at the end every array of the pipeline holds what the library
    computes from the proof data and every other unscoped buffer what the final reshape leaves. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail m)
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, Pipeline.rest_of_restP Pipeline.Prefetch.none spec0 _ c (Vend m c) s (fun k => k.elim0) (h c).2.1 (h c).2.2⟩)

/-- info: 'Cert.KernelIdeal.Hand.run_main' depends on axioms: [propext, Classical.choice, Quot.sound] -/
#guard_msgs in #print axioms run_main

/-! ## What the run says of the arguments and of the result -/

/-- The arguments end as launched, and the result is the output array reshaped. -/
theorem run : θ_run defs (onTc (τ := τ) (main (F := F))) ⟨m, fun _ => 0, ρ⟩ (fun r => ∀ c : Dev nD,
      r.2.mem ((c.tc : Thread nD τ).loc main_v8)
          = shapeCast S16x32x262144 ((dats m 0 c).arrAt 5 cfg0.N : Vec F S16x32x512x512 .f32) shapeCasts_S16x32x512x512_S16x32x262144
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
    ((h c).2 main_v8 (Pipeline.mem_restRefs_of main_v8 (by decide) (by decide))).trans (Vend_v8 m c),
    ((h c).2 main_arg0 (Pipeline.mem_restRefs_of main_arg0 (by decide) (by decide))).trans
      (((Vend_of_ne m c main_arg0 (by decide)).trans (Wexit_of_ne m c main_arg0 (by decide))).trans (V_main_arg0 m c)),
    ((h c).2 main_arg1 (Pipeline.mem_restRefs_of main_arg1 (by decide) (by decide))).trans
      (((Vend_of_ne m c main_arg1 (by decide)).trans (Wexit_of_ne m c main_arg1 (by decide))).trans (V_main_arg1 m c))⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRank3Keepdims.lean ====
/-
  Rank-2 arrays placed in a rank-3 box along a new unit axis, read at an index written by coordinates.

  A matrix `w : [a, c]` becomes a column stack `[a, c, 1]` or a row stack `[a, 1, c]` by a shape cast, and either is then
  broadcast along its unit axis. Read at `(i, j, l)` the first is `w (i, j)` and the second `w (i, l)`: the pair whose
  difference is the table of all pairwise differences `w (i, j) - w (i, l)` of each row `i`. With them: the row
  `[a, 1, c]` cut out of a rank-3 array along its middle axis and cast back to a matrix `[a, c]`.
  (The library's Lib/ValueLayout.lean has the leading-unit-axis casts and the rank-2 row broadcast; these are the
  trailing- and middle-unit-axis forms at rank 3, in its style.)
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    obtain rfl : u = 0 := Subsingleton.elim _ _
    show i.val * b + j.val = (i.val * b + j.val) * 1 + 0
    rw [Nat.mul_one, Nat.add_zero])

/-- An `[a, c]` array cast to `[a, 1, c]` reads, at `(i, u, l)`, the operand at `(i, l)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    rw [Shape.rowMajor_val_two, Shape.rowMajor_val_three]
    obtain rfl : u = 0 := Subsingleton.elim _ _
    show i.val * c + l.val = (i.val * 1 + 0) * c + l.val
    rw [Nat.mul_one, Nat.add_zero])

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- An `[a, b, 1]` array broadcast to `[a, b, c]` reads, at `(i, j, l)`, the operand's one entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row entry `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A matrix `w : [a, b]` stood up as columns `[a, b, 1]` and broadcast to `[a, b, c]` reads `w (i, j)` at `(i, j, l)`. -/
theorem broadcastTo_cols_apply {a b c : ℕ} (w : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ w h) h' (ix3 i j l) = w (ix2 i j) :=
  (broadcastTo_ab1_abc_apply _ h' i j l).trans (shapeCast_ab_ab1_apply w h i j 0)

/-- A matrix `w : [a, c]` laid down as rows `[a, 1, c]` and broadcast to `[a, b, c]` reads `w (i, l)` at `(i, j, l)`. -/
theorem broadcastTo_rows_apply {a b c : ℕ} (w : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (l : Fin c) :
    broadcastTo ⟨3, ![a, b, c]⟩ (shapeCast ⟨3, ![a, 1, c]⟩ w h) h' (ix3 i j l) = w (ix2 i l) :=
  (broadcastTo_a1c_abc_apply _ h' i j l).trans (shapeCast_ac_a1c_apply w h i 0 l)

/-- The matrix at middle coordinate `o` of a rank-3 array — the slice `[a, 1, c]` from `o` along axis 1, cast to
    `[a, c]` — reads, at `(i, l)`, the array at `(i, o, l)`. -/
theorem sliceRow_apply {a n c : ℕ} (o : ℕ) (X : (⟨3, ![a, n, c]⟩ : Shape).Idx → α)
    (h : (⟨3, ![a, n, c]⟩ : Shape).Slices ![0, o, 0] ⟨3, ![a, 1, c]⟩)
    (h' : (⟨3, ![a, 1, c]⟩ : Shape).ShapeCasts ⟨2, ![a, c]⟩) (i : Fin a) (l : Fin c) :
    shapeCast ⟨2, ![a, c]⟩ (extractStridedSlice ⟨3, ![a, 1, c]⟩ ![0, o, 0] X h) h' (ix2 i l)
      = X (ix3 i ⟨o, Nat.lt_of_lt_of_le (Nat.lt_succ_self o) (h.2 1)⟩ l) :=
  (shapeCast_a1c_ac_apply _ h' i l).trans (slice3_axis1_apply o X h i (0 : Fin 1) l _ rfl)

end Idealize.ShloMosaic.ValueIdx
-- ==== Proof.KernelIdealSlabs.lean ====
/-
  What the body leaves in the output block, index by index, over the extended reals.

  Every slab of four feature rows is the same function `chunk` of three 4-entry weight pieces and the two row
  blocks: at (r, i, j) it is max (a r * t_i i + (b r * t_j j + c r)) 0.  The eight slabs take the weight pieces at
  offsets 0, 4, .., 28, so the whole output block is, at (f, i, j),
      max (w0 f * t_i i + (w1 f * t_j j + w2 f)) 0.
-/
import proofs.«149641_j32358283608329_2_alg».proof.Proof.KernelIdealBody
import proofs.«149641_j32358283608329_2_alg».proof.Proof.LibKeepdims
import proofs.«149641_j32358283608329_2_alg».proof.Proof.LibRank3Keepdims
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Idealize.ShloMosaic Idealize.ShloMosaic.ValueIdx
open Cert.KernelIdeal.Gen

/-! ## One slab as a function of its weight pieces and the row blocks -/

section Generic
variable {F : FTy → Type} [FloatOps F]

/-- A slab of four feature rows: a r * t_i i, and b r * t_j j + c r, each spread over the missing axis, added, and
    clamped below at zero. -/
def chunk (a b c : FVec F S4 .f32) (ti : FVec F S256 .f32) (tj : FVec F S512 .f32) : FVec F S1x4x256x512 .f32 :=
  shapeCast S1x4x256x512
    (maximumf
      (addf
        (broadcastTo S4x256x512
          (shapeCast S4x256x1
            (mulf (broadcastTo S4x256 (shapeCast S4x1 a shapeCasts_S4_S4x1) broadcasts_S4x1_S4x256)
              (broadcastTo S4x256 (shapeCast S1x256 ti shapeCasts_S256_S1x256) broadcasts_S1x256_S4x256))
            shapeCasts_S4x256_S4x256x1)
          broadcasts_S4x256x1_S4x256x512)
        (broadcastTo S4x256x512
          (shapeCast S4x1x512
            (addf
              (mulf (broadcastTo S4x512 (shapeCast S4x1 b shapeCasts_S4_S4x1) broadcasts_S4x1_S4x512)
                (broadcastTo S4x512 (shapeCast S1x512 tj shapeCasts_S512_S1x512) broadcasts_S1x512_S4x512))
              (broadcastTo S4x512 (shapeCast S4x1 c shapeCasts_S4_S4x1) broadcasts_S4x1_S4x512))
            shapeCasts_S4x512_S4x1x512)
          broadcasts_S4x1x512_S4x256x512))
      (broadcast S4x256x512 (Scalar.ofBits .f32 0x00000000#32)))
    shapeCasts_S4x256x512_S1x4x256x512

variable (x0 : Vec F S1x1x256 .f32) (x1 : Vec F S1x1x512 .f32) (x2 x3 x4 : Vec F S32 .f32)

/-- The weight pieces of slab k start at offset 4k. -/
theorem slab0_eq : slab0 x0 x1 x2 x3 x4 = chunk (extractStridedSlice S4 ![0] (c0 x2) slices_S32_o0_S4)
    (extractStridedSlice S4 ![0] (c1 x3) slices_S32_o0_S4) (extractStridedSlice S4 ![0] (c2 x4) slices_S32_o0_S4) (ti x0) (tj x1) := rfl
theorem slab1_eq : slab1 x0 x1 x2 x3 x4 = chunk (extractStridedSlice S4 ![4] (c0 x2) slices_S32_o4_S4)
    (extractStridedSlice S4 ![4] (c1 x3) slices_S32_o4_S4) (extractStridedSlice S4 ![4] (c2 x4) slices_S32_o4_S4) (ti x0) (tj x1) := rfl
theorem slab2_eq : slab2 x0 x1 x2 x3 x4 = chunk (extractStridedSlice S4 ![8] (c0 x2) slices_S32_o8_S4)
    (extractStridedSlice S4 ![8] (c1 x3) slices_S32_o8_S4) (extractStridedSlice S4 ![8] (c2 x4) slices_S32_o8_S4) (ti x0) (tj x1) := rfl
theorem slab3_eq : slab3 x0 x1 x2 x3 x4 = chunk (extractStridedSlice S4 ![12] (c0 x2) slices_S32_o12_S4)
    (extractStridedSlice S4 ![12] (c1 x3) slices_S32_o12_S4) (extractStridedSlice S4 ![12] (c2 x4) slices_S32_o12_S4) (ti x0) (tj x1) := rfl
theorem slab4_eq : slab4 x0 x1 x2 x3 x4 = chunk (extractStridedSlice S4 ![16] (c0 x2) slices_S32_o16_S4)
    (extractStridedSlice S4 ![16] (c1 x3) slices_S32_o16_S4) (extractStridedSlice S4 ![16] (c2 x4) slices_S32_o16_S4) (ti x0) (tj x1) := rfl
theorem slab5_eq : slab5 x0 x1 x2 x3 x4 = chunk (extractStridedSlice S4 ![20] (c0 x2) slices_S32_o20_S4)
    (extractStridedSlice S4 ![20] (c1 x3) slices_S32_o20_S4) (extractStridedSlice S4 ![20] (c2 x4) slices_S32_o20_S4) (ti x0) (tj x1) := rfl
theorem slab6_eq : slab6 x0 x1 x2 x3 x4 = chunk (extractStridedSlice S4 ![24] (c0 x2) slices_S32_o24_S4)
    (extractStridedSlice S4 ![24] (c1 x3) slices_S32_o24_S4) (extractStridedSlice S4 ![24] (c2 x4) slices_S32_o24_S4) (ti x0) (tj x1) := rfl
theorem slab7_eq : slab7 x0 x1 x2 x3 x4 = chunk (extractStridedSlice S4 ![28] (c0 x2) slices_S32_o28_S4)
    (extractStridedSlice S4 ![28] (c1 x3) slices_S32_o28_S4) (extractStridedSlice S4 ![28] (c2 x4) slices_S32_o28_S4) (ti x0) (tj x1) := rfl

end Generic

/-! ## Read at an index, over the extended reals -/

/-- A slab at (r, i, j). -/
theorem chunk_apply (a b c : FVec Ideal S4 .f32) (ti : FVec Ideal S256 .f32) (tj : FVec Ideal S512 .f32)
    (u : Fin 1) (r : Fin 4) (i : Fin 256) (j : Fin 512) :
    chunk a b c ti tj (ix4 u r i j)
      = max (a (ix1 r) * ti (ix1 i) + (b (ix1 r) * tj (ix1 j) + c (ix1 r))) (Scalar.ofBits (F := Ideal) .f32 0x00000000#32) := by
  unfold chunk
  rw [shapeCast_abc_1abc_apply, maximumf_apply, addf_apply, broadcast_apply, broadcastTo_cols_apply, broadcastTo_rows_apply,
    mulf_apply, addf_apply, mulf_apply]
  simp only [Cert.LibKeepdims.broadcastTo_a1_ab_apply, Cert.LibKeepdims.shapeCast_a_a1_apply, broadcastTo_1b_ab_apply,
    shapeCast_a_1a_apply]

/-! ## The output block as one function of the five input blocks -/

/-- Entry (f, i, j) of the output block. -/
def Gc (x0 : Vec Ideal S1x1x256 .f32) (x1 : Vec Ideal S1x1x512 .f32) (x2 x3 x4 : Vec Ideal S32 .f32)
    (f : Fin 32) (i : Fin 256) (j : Fin 512) : Elt Ideal .f32 :=
  max (x2 (ix1 f) * x0 (ix3 (0 : Fin 1) (0 : Fin 1) i) + (x3 (ix1 f) * x1 (ix3 (0 : Fin 1) (0 : Fin 1) j) + x4 (ix1 f)))
    (Scalar.ofBits (F := Ideal) .f32 0x00000000#32)

theorem hz1 : (![0] : Fin 1 → ℕ) = fun _ => 0 := funext fun a => by fin_cases a <;> rfl
theorem hz3 : (![0, 0, 0] : Fin 3 → ℕ) = fun _ => 0 := funext fun a => by fin_cases a <;> rfl

/-- The row blocks as the body holds them: the loaded [1, 1, n] block with its unit axes dropped. -/
theorem ti_apply (x0 : Vec Ideal S1x1x256 .f32) (i : Fin 256) : ti x0 (ix1 i) = x0 (ix3 (0 : Fin 1) (0 : Fin 1) i) := by
  show shapeCast S256 (View.ld x0 rI) shapeCasts_S1x1x256_S256 (ix1 i) = _
  rw [View.ld_unit_zero (S := S1x1x256) hz3]
  exact shapeCast_apply x0 shapeCasts_S1x1x256_S256 (ix1 i) (ix3 (0 : Fin 1) (0 : Fin 1) i) (by
    rw [Shape.rowMajor_val_three, Shape.rowMajor_val_one]; show (0 * 1 + 0) * 256 + i.val = i.val; omega)
theorem tj_apply (x1 : Vec Ideal S1x1x512 .f32) (j : Fin 512) : tj x1 (ix1 j) = x1 (ix3 (0 : Fin 1) (0 : Fin 1) j) := by
  show shapeCast S512 (View.ld x1 rJ) shapeCasts_S1x1x512_S512 (ix1 j) = _
  rw [View.ld_unit_zero (S := S1x1x512) hz3]
  exact shapeCast_apply x1 shapeCasts_S1x1x512_S512 (ix1 j) (ix3 (0 : Fin 1) (0 : Fin 1) j) (by
    rw [Shape.rowMajor_val_three, Shape.rowMajor_val_one]; show (0 * 1 + 0) * 512 + j.val = j.val; omega)

/-- The weight columns as the body holds them are the loaded columns. -/
theorem c0_eq (x2 : Vec Ideal S32 .f32) : c0 x2 = x2 := by
  show shapeCast S32 (View.ld x2 rW) shapeCasts_S32_S32 = _
  rw [View.ld_unit_zero (S := S32) hz1]; exact shapeCast_self _ _
theorem c1_eq (x3 : Vec Ideal S32 .f32) : c1 x3 = x3 := by
  show shapeCast S32 (View.ld x3 rW) shapeCasts_S32_S32 = _
  rw [View.ld_unit_zero (S := S32) hz1]; exact shapeCast_self _ _
theorem c2_eq (x4 : Vec Ideal S32 .f32) : c2 x4 = x4 := by
  show shapeCast S32 (View.ld x4 rW) shapeCasts_S32_S32 = _
  rw [View.ld_unit_zero (S := S32) hz1]; exact shapeCast_self _ _

/-- Four consecutive entries of a weight column from offset `o`. -/
theorem piece_apply (o : ℕ) (ho : o + 4 ≤ 32) (hs : S32.Slices ![o] S4) (v : Vec Ideal S32 .f32) (r : Fin 4) :
    extractStridedSlice S4 ![o] v hs (ix1 r) = v (ix1 (⟨o + r.val, by omega⟩ : Fin 32)) :=
  extractStridedSlice_apply ![o] v hs (ix1 r) (ix1 (⟨o + r.val, by omega⟩ : Fin 32)) (fun a => match a with | ⟨0, _⟩ => rfl)

/-- The slab whose weight pieces start at offset `o`, at (r, i, j): entry (o + r, i, j) of the block. -/
theorem slab_apply (o : ℕ) (ho : o + 4 ≤ 32) (hs : S32.Slices ![o] S4)
    (x0 : Vec Ideal S1x1x256 .f32) (x1 : Vec Ideal S1x1x512 .f32) (x2 x3 x4 : Vec Ideal S32 .f32)
    (u : Fin 1) (r : Fin 4) (i : Fin 256) (j : Fin 512) :
    chunk (extractStridedSlice S4 ![o] (c0 x2) hs) (extractStridedSlice S4 ![o] (c1 x3) hs) (extractStridedSlice S4 ![o] (c2 x4) hs)
        (ti x0) (tj x1) (ix4 u r i j)
      = Gc x0 x1 x2 x3 x4 (⟨o + r.val, by omega⟩ : Fin 32) i j := by
  rw [chunk_apply, ti_apply, tj_apply, c0_eq, c1_eq, c2_eq, piece_apply o ho hs, piece_apply o ho hs, piece_apply o ho hs]
  rfl

/-- An index of a slab's rectangle sits in the block at the slab's feature offset. -/
theorem slab_emb (o : ℕ) (inb : ∀ a, (![0, o, 0, 0] : Fin 4 → ℕ) a + S1x4x256x512.size a ≤ S1x32x256x512.size a)
    (x : (Rect.unit (s := S1x32x256x512) ![0, o, 0, 0] S1x4x256x512.size inb).shape.Idx) (a : Fin 4) :
    ((Rect.unit (s := S1x32x256x512) ![0, o, 0, 0] S1x4x256x512.size inb).emb x a).val = (![0, o, 0, 0] : Fin 4 → ℕ) a + 1 * (x a).val :=
  rfl

/-- THE OUTPUT BLOCK after the body: entry (f, i, j) is max (w0 f * t_i i + (w1 f * t_j j + w2 f)) 0. -/
theorem out5_apply (x0 : Vec Ideal S1x1x256 .f32) (x1 : Vec Ideal S1x1x512 .f32) (x2 x3 x4 : Vec Ideal S32 .f32)
    (y : S1x32x256x512.Idx) : out5 (F := Ideal) x0 x1 x2 x3 x4 y = Gc x0 x1 x2 x3 x4 (y 1) (y 2) (y 3) := by
  unfold out5
  refine View.canon_apply_of_pieces (Val := Elt Ideal) (fun y : S1x32x256x512.Idx => Gc x0 x1 x2 x3 x4 (y 1) (y 2) (y 3)) _ ?_ y (cover5 _ _ _ _ _ _ _ _ y)
  intro p hp
  simp only [List.mem_cons, List.mem_nil_iff, or_false] at hp
  rcases hp with rfl | rfl | rfl | rfl | rfl | rfl | rfl | rfl
  · intro x
    have hx : x = ix4 (x 0) (x 1) (x 2) (x 3) := eq_ix4 x
    rw [hx, slab7_eq]
    refine (slab_apply 28 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 28 + (x 1).val = 28 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab6_eq]
    refine (slab_apply 24 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 24 + (x 1).val = 24 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab5_eq]
    refine (slab_apply 20 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 20 + (x 1).val = 20 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab4_eq]
    refine (slab_apply 16 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 16 + (x 1).val = 16 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab3_eq]
    refine (slab_apply 12 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 12 + (x 1).val = 12 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab2_eq]
    refine (slab_apply 8 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 8 + (x 1).val = 8 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab1_eq]
    refine (slab_apply 4 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 4 + (x 1).val = 4 + 1 * (x 1).val; omega
    · apply Fin.ext; show (x 2).val = 0 + 1 * (x 2).val; omega
    · apply Fin.ext; show (x 3).val = 0 + 1 * (x 3).val; omega
  · intro x
    have hx : x = ix4 (x 0) (x 1) (x 2) (x 3) := eq_ix4 x
    rw [hx, slab0_eq]
    refine (slab_apply 0 (by omega) _ x0 x1 x2 x3 x4 (x 0) (x 1) (x 2) (x 3)).trans ?_
    rw [← hx]
    show Gc x0 x1 x2 x3 x4 _ _ _ = Gc x0 x1 x2 x3 x4 _ _ _
    congr 1
    · apply Fin.ext; show 0 + (x 1).val = 0 + 1 * (x 1).val; omega
    · apply Fin.ext; show (x 2).val = 0 + 1 * (x 2).val; omega
    · apply Fin.ext; show (x 3).val = 0 + 1 * (x 3).val; omega

end Cert.KernelIdeal.Hand

end
-- ==== Proof.KernelIdealValue.lean ====
/-
  The pairwise kernel's result array as one function of the two arguments, over the extended reals.

  Point (b, p, 0) of the 16 x 2 x 1 grid writes block (b, 0, p, 0) of the output array, of shape 1 x 32 x 256 x 512.  Its
  row block t_i is entries 256 p .. 256 p + 255 of row b of t and its row block t_j is all of row b; its weight
  columns are w (0, ., 0, 0), w (0, ., 1, 0), w (0, ., 2, 0).  So entry (b, f, i, j) of the output array is
      max (w (0,f,0,0) * t (b, i) + (w (0,f,1,0) * t (b, j) + w (0,f,2,0))) 0,
  written by the one point whose block holds it; the 32 blocks tile the array.
-/
import proofs.«149641_j32358283608329_2_alg».proof.Proof.KernelIdealRun
import proofs.«149641_j32358283608329_2_alg».proof.Proof.KernelIdealSlabs
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable (m : (ℓ : Loc nD τ sig) → Buf (Elt Ideal) ℓ) (ρ : Dev nD → PrngReg)

/-! ## The specification -/

/-- Entry (b, f, i, j) of the result, from t and w. -/
def Gfun (t : Vec Ideal S16x512 .f32) (w : Vec Ideal S1x32x3x1 .f32) (b : Fin 16) (f : Fin 32) (i j : Fin 512) : Elt Ideal .f32 :=
  max (w (ix4 (0 : Fin 1) f (0 : Fin 3) (0 : Fin 1)) * t (ix2 b i)
      + (w (ix4 (0 : Fin 1) f (1 : Fin 3) (0 : Fin 1)) * t (ix2 b j) + w (ix4 (0 : Fin 1) f (2 : Fin 3) (0 : Fin 1))))
    (Scalar.ofBits (F := Ideal) .f32 0x00000000#32)

/-- The rank-4 result array. -/
def G4 (t : Vec Ideal S16x512 .f32) (w : Vec Ideal S1x32x3x1 .f32) : Vec Ideal S16x32x512x512 .f32 :=
  fun y => Gfun t w (y 0) (y 1) (y 2) (y 3)

/-- A block entry is the result's entry once each block read is the argument's entry it stands for. -/
theorem Gc_eq_of (X0 : Vec Ideal S1x1x256 .f32) (X1 : Vec Ideal S1x1x512 .f32) (X2 X3 X4 : Vec Ideal S32 .f32)
    (t : Vec Ideal S16x512 .f32) (w : Vec Ideal S1x32x3x1 .f32) (f : Fin 32) (i : Fin 256) (j : Fin 512)
    (b' : Fin 16) (f' : Fin 32) (i' j' : Fin 512)
    (h0 : X0 (ix3 (0 : Fin 1) (0 : Fin 1) i) = t (ix2 b' i')) (h1 : X1 (ix3 (0 : Fin 1) (0 : Fin 1) j) = t (ix2 b' j'))
    (h2 : X2 (ix1 f) = w (ix4 (0 : Fin 1) f' (0 : Fin 3) (0 : Fin 1))) (h3 : X3 (ix1 f) = w (ix4 (0 : Fin 1) f' (1 : Fin 3) (0 : Fin 1)))
    (h4 : X4 (ix1 f) = w (ix4 (0 : Fin 1) f' (2 : Fin 3) (0 : Fin 1))) :
    Gc X0 X1 X2 X3 X4 f i j = Gfun t w b' f' i' j' := by
  unfold Gc Gfun; rw [h0, h1, h2, h3, h4]

/-! ## The arrays the region finds, from the arguments -/

/-- t with a unit middle axis. -/
theorem V6_apply (c : Dev nD) (b : Fin 16) (u : Fin 1) (k : Fin 512) :
    V m c main_v6 (ix3 b u k) = m ((c : Thread nD τ).loc main_arg0) (ix2 b k) := by
  have e : (V m c main_v6 : S16x1x512.Idx → Elt Ideal .f32)
      = shapeCast S16x1x512 (m ((c : Thread nD τ).loc main_arg0)) shapeCasts_S16x512_S16x1x512 := by
    show StableHlo.after hostOps0 (fun b => m (c, b)) (Proc.devRef .tc main_v6) = _
    after_results; rfl
  rw [e]; exact shapeCast_ac_a1c_apply _ _ b u k

/-- Column `o` of w as a vector of 32 entries. -/
theorem col_apply (o : ℕ) (ho : o < 3) (hs : S1x32x3x1.Slices ![0, 0, o, 0] S1x32x1x1) (w : Vec Ideal S1x32x3x1 .f32) (f : Fin 32) :
    shapeCast S32 (extractStridedSlice S1x32x1x1 ![0, 0, o, 0] w hs) shapeCasts_S1x32x1x1_S32 (ix1 f)
      = w (ix4 (0 : Fin 1) f (⟨o, ho⟩ : Fin 3) (0 : Fin 1)) :=
  (shapeCast_apply _ shapeCasts_S1x32x1x1_S32 (ix1 f) (ix4 (0 : Fin 1) f (0 : Fin 1) (0 : Fin 1)) (by
      rw [Shape.rowMajor_val_four, Shape.rowMajor_val_one]; show ((0 * 32 + f.val) * 1 + 0) * 1 + 0 = f.val; omega)).trans
    (extractStridedSlice_apply ![0, 0, o, 0] w hs _ (ix4 (0 : Fin 1) f (⟨o, ho⟩ : Fin 3) (0 : Fin 1)) (fun a => match a with
      | ⟨0, _⟩ => rfl
      | ⟨1, _⟩ => by show f.val = 0 + f.val; omega
      | ⟨2, _⟩ => by show o = o + 0; omega
      | ⟨3, _⟩ => rfl))

theorem V1_apply (c : Dev nD) (f : Fin 32) :
    V m c main_v1 (ix1 f) = m ((c : Thread nD τ).loc main_arg1) (ix4 (0 : Fin 1) f (0 : Fin 3) (0 : Fin 1)) := by
  have e : (V m c main_v1 : S32.Idx → Elt Ideal .f32)
      = shapeCast S32 (extractStridedSlice S1x32x1x1 ![0, 0, 0, 0] (m ((c : Thread nD τ).loc main_arg1)) slices_S1x32x3x1_S1x32x1x1_0_0_0_0) shapeCasts_S1x32x1x1_S32 := by
    show StableHlo.after hostOps0 (fun b => m (c, b)) (Proc.devRef .tc main_v1) = _
    after_results; rfl
  rw [e]; exact col_apply 0 (by omega) _ _ f
theorem V3_apply (c : Dev nD) (f : Fin 32) :
    V m c main_v3 (ix1 f) = m ((c : Thread nD τ).loc main_arg1) (ix4 (0 : Fin 1) f (1 : Fin 3) (0 : Fin 1)) := by
  have e : (V m c main_v3 : S32.Idx → Elt Ideal .f32)
      = shapeCast S32 (extractStridedSlice S1x32x1x1 ![0, 0, 1, 0] (m ((c : Thread nD τ).loc main_arg1)) slices_S1x32x3x1_S1x32x1x1_0_0_1_0) shapeCasts_S1x32x1x1_S32 := by
    show StableHlo.after hostOps0 (fun b => m (c, b)) (Proc.devRef .tc main_v3) = _
    after_results; rfl
  rw [e]; exact col_apply 1 (by omega) _ _ f
theorem V5_apply (c : Dev nD) (f : Fin 32) :
    V m c main_v5 (ix1 f) = m ((c : Thread nD τ).loc main_arg1) (ix4 (0 : Fin 1) f (2 : Fin 3) (0 : Fin 1)) := by
  have e : (V m c main_v5 : S32.Idx → Elt Ideal .f32)
      = shapeCast S32 (extractStridedSlice S1x32x1x1 ![0, 0, 2, 0] (m ((c : Thread nD τ).loc main_arg1)) slices_S1x32x3x1_S1x32x1x1_0_0_2_0) shapeCasts_S1x32x1x1_S32 := by
    show StableHlo.after hostOps0 (fun b => m (c, b)) (Proc.devRef .tc main_v5) = _
    after_results; rfl
  rw [e]; exact col_apply 2 (by omega) _ _ f

/-! ## The blocks a point reads -/

/-- Entry i of the point's t_i block. -/
theorem read_ti (c : Dev nD) (t : Fin cfg0.N) (i : Fin 256) (b' : Fin 16) (i' : Fin 512)
    (hb : win0_0.index t (0 : Fin 3) = b'.val) (hu : win0_0.index t (1 : Fin 3) = 0)
    (hi : win0_0.index t (2 : Fin 3) * 256 + i.val = i'.val) :
    iblk m c 0 t (ix3 (0 : Fin 1) (0 : Fin 1) i) = m ((c : Thread nD τ).loc main_arg0) (ix2 b' i') := by
  show V m c main_v6 (((cfg0.win 0).blk t).view.emb (ix3 (0 : Fin 1) (0 : Fin 1) i)) = _
  have h : ((cfg0.win 0).blk t).view.emb (ix3 (0 : Fin 1) (0 : Fin 1) i) = ix3 b' (0 : Fin 1) i' := by
    funext a; apply Fin.ext
    match a with
    | ⟨0, _⟩ => show win0_0.index t (0 : Fin 3) * 1 + 1 * 0 = b'.val; omega
    | ⟨1, _⟩ => show win0_0.index t (1 : Fin 3) * 1 + 1 * 0 = 0; omega
    | ⟨2, _⟩ => show win0_0.index t (2 : Fin 3) * 256 + 1 * i.val = i'.val; omega
  rw [h]; exact V6_apply m c b' 0 i'

/-- Entry j of the point's t_j block. -/
theorem read_tj (c : Dev nD) (t : Fin cfg0.N) (j : Fin 512) (b' : Fin 16) (j' : Fin 512)
    (hb : win0_1.index t (0 : Fin 3) = b'.val) (hu : win0_1.index t (1 : Fin 3) = 0)
    (hj : win0_1.index t (2 : Fin 3) * 512 + j.val = j'.val) :
    iblk m c 1 t (ix3 (0 : Fin 1) (0 : Fin 1) j) = m ((c : Thread nD τ).loc main_arg0) (ix2 b' j') := by
  show V m c main_v6 (((cfg0.win 1).blk t).view.emb (ix3 (0 : Fin 1) (0 : Fin 1) j)) = _
  have h : ((cfg0.win 1).blk t).view.emb (ix3 (0 : Fin 1) (0 : Fin 1) j) = ix3 b' (0 : Fin 1) j' := by
    funext a; apply Fin.ext
    match a with
    | ⟨0, _⟩ => show win0_1.index t (0 : Fin 3) * 1 + 1 * 0 = b'.val; omega
    | ⟨1, _⟩ => show win0_1.index t (1 : Fin 3) * 1 + 1 * 0 = 0; omega
    | ⟨2, _⟩ => show win0_1.index t (2 : Fin 3) * 512 + 1 * j.val = j'.val; omega
  rw [h]; exact V6_apply m c b' 0 j'

/-- Entry f of each weight column block. -/
theorem read_w0 (c : Dev nD) (t : Fin cfg0.N) (f f' : Fin 32) (h0 : win0_2.index t (0 : Fin 1) * 32 + f.val = f'.val) :
    iblk m c 2 t (ix1 f) = m ((c : Thread nD τ).loc main_arg1) (ix4 (0 : Fin 1) f' (0 : Fin 3) (0 : Fin 1)) := by
  show V m c main_v1 (((cfg0.win 2).blk t).view.emb (ix1 f)) = _
  have h : ((cfg0.win 2).blk t).view.emb (ix1 f) = ix1 f' := by
    funext a; apply Fin.ext
    match a with
    | ⟨0, _⟩ => show win0_2.index t (0 : Fin 1) * 32 + 1 * f.val = f'.val; omega
  rw [h]; exact V1_apply m c f'
theorem read_w1 (c : Dev nD) (t : Fin cfg0.N) (f f' : Fin 32) (h0 : win0_3.index t (0 : Fin 1) * 32 + f.val = f'.val) :
    iblk m c 3 t (ix1 f) = m ((c : Thread nD τ).loc main_arg1) (ix4 (0 : Fin 1) f' (1 : Fin 3) (0 : Fin 1)) := by
  show V m c main_v3 (((cfg0.win 3).blk t).view.emb (ix1 f)) = _
  have h : ((cfg0.win 3).blk t).view.emb (ix1 f) = ix1 f' := by
    funext a; apply Fin.ext
    match a with
    | ⟨0, _⟩ => show win0_3.index t (0 : Fin 1) * 32 + 1 * f.val = f'.val; omega
  rw [h]; exact V3_apply m c f'
theorem read_w2 (c : Dev nD) (t : Fin cfg0.N) (f f' : Fin 32) (h0 : win0_4.index t (0 : Fin 1) * 32 + f.val = f'.val) :
    iblk m c 4 t (ix1 f) = m ((c : Thread nD τ).loc main_arg1) (ix4 (0 : Fin 1) f' (2 : Fin 3) (0 : Fin 1)) := by
  show V m c main_v5 (((cfg0.win 4).blk t).view.emb (ix1 f)) = _
  have h : ((cfg0.win 4).blk t).view.emb (ix1 f) = ix1 f' := by
    funext a; apply Fin.ext
    match a with
    | ⟨0, _⟩ => show win0_4.index t (0 : Fin 1) * 32 + 1 * f.val = f'.val; omega
  rw [h]; exact V5_apply m c f'

/-! ## From blocks to the array -/

/-- The block indices of the six windows at a point, decided over the 32 points: the two row windows sit on the output
    block's batch row, t_i on its row block and t_j at 0; the weight windows and the output's feature and column
    block indices are 0. -/
theorem idx_facts : ∀ t : Fin cfg0.N,
    win0_0.index t (0 : Fin 3) = win0_5.index t (0 : Fin 4) ∧ win0_0.index t (1 : Fin 3) = 0
    ∧ win0_0.index t (2 : Fin 3) = win0_5.index t (2 : Fin 4)
    ∧ win0_1.index t (0 : Fin 3) = win0_5.index t (0 : Fin 4) ∧ win0_1.index t (1 : Fin 3) = 0 ∧ win0_1.index t (2 : Fin 3) = 0
    ∧ win0_2.index t (0 : Fin 1) = 0 ∧ win0_3.index t (0 : Fin 1) = 0 ∧ win0_4.index t (0 : Fin 1) = 0
    ∧ win0_5.index t (1 : Fin 4) = 0 ∧ win0_5.index t (3 : Fin 4) = 0
    ∧ win0_5.index t (0 : Fin 4) ≤ 15 ∧ win0_5.index t (2 : Fin 4) ≤ 1 :=
  (by decide +kernel : ∀ t : Fin grid0.N, _)

/-- Every block of the output array is some point's. -/
theorem idx_onto : ∀ (q0 : Fin 16) (q2 : Fin 2), ∃ t : Fin cfg0.N, win0_5.index t = ![q0.val, 0, q2.val, 0] :=
  (by decide +kernel : ∀ (q0 : Fin 16) (q2 : Fin 2), ∃ t : Fin grid0.N, win0_5.index t = ![q0.val, 0, q2.val, 0])

/-- WHAT POINT `t` WRITES BACK is block `t` of the result array of the arguments. -/
theorem flushed5_eq (c : Dev nD) (t : Fin cfg0.N) :
    (dats m 0 c).flushed 5 t
      = ((cfg0.win 5).blk t).view.read (Elt Ideal) (G4 (m ((c : Thread nD τ).loc main_arg0)) (m ((c : Thread nD τ).loc main_arg1))) := by
  show (cfg0.win 5).cut (grid0.coords t) ((dats m 0 c).after 5 t) = _
  rw [after_5]
  obtain ⟨e00, e01, e02, e10, e11, e12, e2, e3, e4, e51, e53, b0, b2⟩ := idx_facts t
  funext y
  show out5 (F := Ideal) (iblk m c 0 t) (iblk m c 1 t) (iblk m c 2 t) (iblk m c 3 t) (iblk m c 4 t) y
    = G4 (m ((c : Thread nD τ).loc main_arg0)) (m ((c : Thread nD τ).loc main_arg1)) (((cfg0.win 5).blk t).view.emb y)
  rw [out5_apply]
  have hy0 : (y 0).val < 1 := (y 0).isLt
  have hy1 : (y 1).val < 32 := (y 1).isLt
  have hy2 : (y 2).val < 256 := (y 2).isLt
  have hy3 : (y 3).val < 512 := (y 3).isLt
  have E0 : ((((cfg0.win 5).blk t).view.emb y) 0).val = win0_5.index t (0 : Fin 4) * 1 + 1 * (y 0).val := rfl
  have E1 : ((((cfg0.win 5).blk t).view.emb y) 1).val = win0_5.index t (1 : Fin 4) * 32 + 1 * (y 1).val := rfl
  have E2 : ((((cfg0.win 5).blk t).view.emb y) 2).val = win0_5.index t (2 : Fin 4) * 256 + 1 * (y 2).val := rfl
  have E3 : ((((cfg0.win 5).blk t).view.emb y) 3).val = win0_5.index t (3 : Fin 4) * 512 + 1 * (y 3).val := rfl
  unfold G4
  refine Gc_eq_of (iblk m c 0 t) (iblk m c 1 t) (iblk m c 2 t) (iblk m c 3 t) (iblk m c 4 t) _ _ (y 1) (y 2) (y 3)
    ((((cfg0.win 5).blk t).view.emb y) 0) ((((cfg0.win 5).blk t).view.emb y) 1) ((((cfg0.win 5).blk t).view.emb y) 2) ((((cfg0.win 5).blk t).view.emb y) 3)
    (read_ti m c t (y 2) _ _ (by omega) e01 (by omega)) (read_tj m c t (y 3) _ _ (by omega) e11 (by omega))
    (read_w0 m c t (y 1) _ (by omega)) (read_w1 m c t (y 1) _ (by omega)) (read_w2 m c t (y 1) _ (by omega))

/-- An index of the array is in point `t`'s block iff each coordinate is in the block's range on its axis. -/
theorem mem_blk5 (t : Fin cfg0.N) (i : S16x32x512x512.Idx) :
    i ∈ ((cfg0.win 5).blk t).view.set ↔ ∀ a : Fin 4, win0_5.index t a * S1x32x256x512.size a ≤ (i a).val
      ∧ (i a).val < win0_5.index t a * S1x32x256x512.size a + S1x32x256x512.size a := by
  show i ∈ ((View.whole main_v7).slice (win0_5.rect t)).set ↔ _
  rw [View.set_slice_whole, Rect.mem_set_unit]
  exact Iff.rfl

/-- The 32 blocks tile the array: entry (b, f, i, j) lies in the block of point (b, i / 256, 0). -/
theorem covered (i : S16x32x512x512.Idx) :
    ∃ t : Fin cfg0.N, (cfg0.win 5).flush t = true ∧ i ∈ ((cfg0.win 5).blk t).view.set := by
  have h0 : (i 0).val < 16 := (i 0).isLt
  have h1 : (i 1).val < 32 := (i 1).isLt
  have h2 : (i 2).val < 512 := (i 2).isLt
  have h3 : (i 3).val < 512 := (i 3).isLt
  obtain ⟨t, ht⟩ := idx_onto ⟨(i 0).val, h0⟩ ⟨(i 2).val / 256, by omega⟩
  have q0 : win0_5.index t (0 : Fin 4) = (i 0).val := congrFun ht 0
  have q1 : win0_5.index t (1 : Fin 4) = 0 := congrFun ht 1
  have q2 : win0_5.index t (2 : Fin 4) = (i 2).val / 256 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 256 ≤ (i 2).val ∧ (i 2).val < win0_5.index t (2 : Fin 4) * 256 + 256; omega
  | ⟨3, _⟩ => show win0_5.index t (3 : Fin 4) * 512 ≤ (i 3).val ∧ (i 3).val < win0_5.index t (3 : Fin 4) * 512 + 512; omega

/-- THE OUTPUT ARRAY after the run is the result array of the arguments. -/
theorem final5 (c : Dev nD) :
    (dats m 0 c).arrAt 5 cfg0.N = G4 (m ((c : Thread nD τ).loc main_arg0)) (m ((c : Thread nD τ).loc main_arg1)) :=
  (dats m 0 c).arrAt_eq_of_cover 5 (G4 (m ((c : Thread nD τ).loc main_arg0)) (m ((c : Thread nD τ).loc main_arg1)))
    (fun t _ => flushed5_eq m c t) covered

/-! ## The run, read -/

/-- Every weakly fair execution of the kernel's program terminates with the result at the result array reshaped and the
    arguments unchanged. -/
theorem value_run : θ_run defs (onTc (τ := τ) (main (F := Ideal))) ⟨m, fun _ => 0, ρ⟩ (fun r => ∀ c : Dev nD,
      r.2.mem ((c.tc : Thread nD τ).loc main_v8)
          = shapeCast S16x32x262144 (G4 (m ((c : Thread nD τ).loc main_arg0)) (m ((c : Thread nD τ).loc main_arg1))) shapeCasts_S16x32x512x512_S16x32x262144
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [final5]), (h c).2⟩) (run (F := Ideal) m ρ)

end Cert.KernelIdeal.Hand

end
-- ==== Proof.RefValue.lean ====
/-
  The reference's rank-4 result, index by index, over the extended reals.

  The reference spreads the three weight columns and the two copies of t over the box [16, 32, 512, 512] by
  broadcasts, multiplies and adds them, and clamps below at zero: at (b, f, i, j) it is
      max ((w0 f * t (b, i) + w1 f * t (b, j)) + w2 f) 0,
  where w0 f, w1 f, w2 f are w (0, f, 0, 0), w (0, f, 1, 0), w (0, f, 2, 0).
-/
import proofs.«149641_j32358283608329_2_alg».proof.Proof.Gen.ReferenceIdeal.Read
import Idealize.ShloMosaic.Lib.ValueIdx
import Idealize.ShloMosaic.PureOps.Ideal

noncomputable section

namespace Cert.ReferenceIdeal.RefValue

open Idealize.ShloMosaic Idealize.ShloMosaic.ValueIdx
open Cert.ReferenceIdeal Cert.ReferenceIdeal.Read

/-- Entry (b, f, i, j) of the reference's rank-4 result. -/
def Gref (t : (⟨S16x512, .f32⟩ : BufTy).Contents (Elt Ideal)) (w : (⟨S1x32x3x1, .f32⟩ : BufTy).Contents (Elt Ideal))
    (b : Fin 16) (f : Fin 32) (i j : Fin 512) : Elt Ideal .f32 :=
  max ((w (ix4 (0 : Fin 1) f (0 : Fin 3) (0 : Fin 1)) * t (ix2 b i) + w (ix4 (0 : Fin 1) f (1 : Fin 3) (0 : Fin 1)) * t (ix2 b j))
      + w (ix4 (0 : Fin 1) f (2 : Fin 3) (0 : Fin 1)))
    (FloatOps.ofBits (F := Ideal) .f32 0x00000000#32)

section Indices
variable (b : Fin 16) (f : Fin 32) (i j : Fin 512)

/-- Where each broadcast chain reads its operand, at (b, f, i, j). -/
theorem at_w0 : idx_main_v0 (idx_main_v1 (idx_main_v6 (idx_main_v8 (idx_main_v16 (ix4 b f i j))))) = ix4 (0 : Fin 1) f (0 : Fin 3) (0 : Fin 1) :=
  funext fun a => Fin.ext (match a with
    | ⟨0, _⟩ => by first | rfl | (have hf := f.isLt; show f.val / 1 % 32 = f.val; omega)
    | ⟨1, _⟩ => by first | rfl | (have hf := f.isLt; show f.val / 1 % 32 = f.val; omega)
    | ⟨2, _⟩ => by first | rfl | (have hf := f.isLt; show f.val / 1 % 32 = f.val; omega)
    | ⟨3, _⟩ => by first | rfl | (have hf := f.isLt; show f.val / 1 % 32 = f.val; omega))
theorem at_ti : idx_main_v7 (idx_main_v9 (idx_main_v16 (ix4 b f i j))) = ix2 b i :=
  funext fun a => Fin.ext (match a with
    | ⟨0, _⟩ => by first | rfl | (have hf := f.isLt; show f.val / 1 % 32 = f.val; omega)
    | ⟨1, _⟩ => by first | rfl | (have hf := f.isLt; show f.val / 1 % 32 = f.val; omega))
theorem at_w1 : idx_main_v2 (idx_main_v3 (idx_main_v11 (idx_main_v13 (idx_main_v17 (ix4 b f i j))))) = ix4 (0 : Fin 1) f (1 : Fin 3) (0 : Fin 1) :=
  funext fun a => Fin.ext (match a with
    | ⟨0, _⟩ => by first | rfl | (have hf := f.isLt; show f.val / 1 % 32 = f.val; omega)
    | ⟨1, _⟩ => by first | rfl | (have hf := f.isLt; show f.val / 1 % 32 = f.val; omega)
    | ⟨2, _⟩ => by first | rfl | (have hf := f.isLt; show f.val / 1 % 32 = f.val; omega)
    | ⟨3, _⟩ => by first | rfl | (have hf := f.isLt; show f.val / 1 % 32 = f.val; omega))
theorem at_tj : idx_main_v12 (idx_main_v14 (idx_main_v17 (ix4 b f i j))) = ix2 b j :=
  funext fun a => Fin.ext (match a with
    | ⟨0, _⟩ => by first | rfl | (have hf := f.isLt; show f.val / 1 % 32 = f.val; omega)
    | ⟨1, _⟩ => by first | rfl | (have hf := f.isLt; show f.val / 1 % 32 = f.val; omega))
theorem at_w2 : idx_main_v4 (idx_main_v5 (idx_main_v19 (idx_main_v20 (ix4 b f i j)))) = ix4 (0 : Fin 1) f (2 : Fin 3) (0 : Fin 1) :=
  funext fun a => Fin.ext (match a with
    | ⟨0, _⟩ => by first | rfl | (have hf := f.isLt; show f.val / 1 % 32 = f.val; omega)
    | ⟨1, _⟩ => by first | rfl | (have hf := f.isLt; show f.val / 1 % 32 = f.val; omega)
    | ⟨2, _⟩ => by first | rfl | (have hf := f.isLt; show f.val / 1 % 32 = f.val; omega)
    | ⟨3, _⟩ => by first | rfl | (have hf := f.isLt; show f.val / 1 % 32 = f.val; omega))

end Indices

/-- THE REFERENCE'S RANK-4 RESULT at (b, f, i, j). -/
theorem v22_apply (x0 : (⟨S16x512, .f32⟩ : BufTy).Contents (Elt Ideal)) (x1 : (⟨S1x32x3x1, .f32⟩ : BufTy).Contents (Elt Ideal))
    (b : Fin 16) (f : Fin 32) (i j : Fin 512) :
    val_main_v22 (F := Ideal) x0 x1 (ix4 b f i j) = Gref x0 x1 b f i j := by
  rw [val_main_v22_apply, val_main_v21_apply, val_main_v18_apply, val_main_v16_apply, val_main_v10_apply,
    val_main_v8_apply, val_main_v6_apply, val_main_v1_apply, val_main_v0_apply, val_main_v9_apply, val_main_v7_apply,
    val_main_v17_apply, val_main_v15_apply, val_main_v13_apply, val_main_v11_apply, val_main_v3_apply, val_main_v2_apply,
    val_main_v14_apply, val_main_v12_apply, val_main_v20_apply, val_main_v19_apply, val_main_v5_apply, val_main_v4_apply,
    val_main_call0_v0_apply, val_main_call0_cst_apply, at_w0, at_ti, at_w1, at_tj, at_w2]
  rfl

end Cert.ReferenceIdeal.RefValue

end
-- ==== Proof.Bridge.lean ====
/-
  The two programs compute one function.

  At entry (b, f, i, j) the kernel's program has max (w0 f * t (b, i) + (w1 f * t (b, j) + w2 f)) 0 and the reference has
  max ((w0 f * t (b, i) + w1 f * t (b, j)) + w2 f) 0.  Addition of extended reals is associative with no side condition (they form a
  commutative monoid under +), so the two rank-4 arrays are equal whatever the entries are, and both programs end with
  the same reshape of them.
-/
import proofs.«149641_j32358283608329_2_alg».proof.Proof.KernelIdealValue
import proofs.«149641_j32358283608329_2_alg».proof.Proof.RefValue

noncomputable section

namespace Cert.Bridge

open Idealize.ShloMosaic Idealize.ShloMosaic.ValueIdx

/-- The reference's rank-4 result is the kernel's result array, for any t and w. -/
theorem ref_eq (t : Vec Ideal Cert.KernelIdeal.S16x512 .f32) (w : Vec Ideal Cert.KernelIdeal.S1x32x3x1 .f32) :
    Cert.ReferenceIdeal.Read.val_main_v22 (F := Ideal) t w = Cert.KernelIdeal.Hand.G4 t w := by
  funext y
  obtain ⟨b, f, i, j, rfl⟩ : ∃ (b : Fin 16) (f : Fin 32) (i j : Fin 512), y = ix4 b f i j := ⟨y 0, y 1, y 2, y 3, eq_ix4 y⟩
  rw [Cert.ReferenceIdeal.RefValue.v22_apply]
  show Cert.ReferenceIdeal.RefValue.Gref t w b f i j = Cert.KernelIdeal.Hand.Gfun t w b f i j
  unfold Cert.ReferenceIdeal.RefValue.Gref Cert.KernelIdeal.Hand.Gfun
  rw [add_assoc]

end Cert.Bridge

end
-- ==== Proof.lean ====
/-
  The certificate of the pairwise kernel  out[b, f, i*512 + j] = relu (w0 f * t (b, i) + w1 f * t (b, j) + w2 f).

  Frames: the kernel's program (as printed, and read over the extended reals) is host slices and reshapes, one
  pipelined region on a 16 x 2 x 1 grid whose two row windows read one array, and a final reshape; it runs to the end
  and writes no argument (Proof/KernelRun.lean, Proof/KernelIdealRun.lean).  The reference is a line of host operations.
  The idealization rewrote nothing.  Over the extended reals both programs end with the same array: the kernel adds
  w0 f * t (b, i) to (w1 f * t (b, j) + w2 f), the reference adds w2 f to (w0 f * t (b, i) + w1 f * t (b, j)), and addition
  is associative (Proof/Bridge.lean); the precondition is not needed.
-/
import proofs.«149641_j32358283608329_2_alg».proof.Defs
import proofs.«149641_j32358283608329_2_alg».proof.Proof.Gen.Kernel
import proofs.«149641_j32358283608329_2_alg».proof.Proof.Gen.KernelIdeal
import proofs.«149641_j32358283608329_2_alg».proof.Proof.Gen.ReferenceIdeal
import proofs.«149641_j32358283608329_2_alg».proof.Proof.Gen.Pre_finite_inputs
import proofs.«149641_j32358283608329_2_alg».proof.Proof.Gen.ReferenceIdeal.Run
import proofs.«149641_j32358283608329_2_alg».proof.Proof.Gen.ReferenceIdeal.Read
import proofs.«149641_j32358283608329_2_alg».proof.Proof.KernelRun
import proofs.«149641_j32358283608329_2_alg».proof.Proof.Bridge

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at the result array of the arguments, reshaped to [16, 32, 262144]. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  exact congrArg (fun X => shapeCast _ X Cert.KernelIdeal.Facts₀.shapeCasts_S16x32x512x512_S16x32x262144) (Cert.Bridge.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
